-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x16 .f32) (main_arg12 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x16 .f32 := Host.absf main_arg11
  let main_cst_18 : FVec F S_ .f32 := constant S_ .f32 0x7F800000#32
  let main_v50 : FVec F S128x16 .f32 := broadcastInDim S128x16 ![] bcast_S_S128x16 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x16 .f32) (main_arg12 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x16 .f32) (main_arg12 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x16 : Shape := ⟨2, ![1, 16]⟩
abbrev S100000x16 : Shape := ⟨2, ![100000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 85
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x16, .f32⟩
  | .hbm, ⟨12, _⟩ => ⟨S16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S1x16, .f32⟩
  | .hbm, ⟨84, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x16, .f32⟩
  | .local _ .vmem, ⟨30, _⟩ => ⟨S1x16, .f32⟩
  | .local _ .vmem, ⟨31, _⟩ => ⟨S2000x16, .f32⟩
  | .local _ .vmem, ⟨32, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x16.size a ≤ S100000x16.size a
  hwx3_3 : ∀ i : grid3.Coords, EltTy.bits .f32 = 32 ∨ (Rect.block (s := S100000x16) S2000x16.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x16, .f32⟩
  | .hbm, ⟨12, _⟩ => ⟨S16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S100000x16, .f32⟩
  | .hbm, ⟨102, _⟩ => ⟨S1x16, .f32⟩
  | .hbm, ⟨103, _⟩ => ⟨S100000x16, .f32⟩
  | .hbm, ⟨104, _⟩ => ⟨S100000x16, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S100000x16, .f32⟩
  | .hbm, ⟨112, _⟩ => ⟨S100000x16, .f32⟩
  | .hbm, ⟨113, _⟩ => ⟨S100000x16, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S100000x16, .f32⟩
  | .hbm, ⟨119, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_c_8 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_call2_cst_0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_cst_1 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_v75 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KRun.lean ====
/-
  The idealized kernel's run with its two results named.

  @main is four launched regions among stretches of host operations.  Every weakly fair execution from a memory with
  zero counters terminates without a fault; in the final state every buffer that outlives a region holds the contents
  of the last boundary of the fold of @main's segments over the launch memory.  Read at the two result buffers this
  names what the run leaves there; read at the arguments it says they end as launched.
-/
import proofs.«113549_j29454885716510_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the embedding and the class scores end at the
    last boundary's contents of their buffers, and the thirteen arguments end as launched. -/
theorem run_named : θ_run defs (onTc (τ := τ) (main (F := F))) ⟨m, fun _ => 0, ρ⟩ (fun r => ∀ c : Dev nD,
      r.2.mem ((c.tc : Thread nD τ).loc main_v56) = V8 m ρ c main_v56
      ∧ r.2.mem ((c.tc : Thread nD τ).loc main_v58) = V8 m ρ c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Named

end
-- ==== Proof.Spec.lean ====
/-
  What the network computes, entry by entry, over the extended reals.

  A graph layer sends a node's aggregated neighbour row `m` and its own row `h` to
  `(m · Wn + h · Ws) + b`, followed in the first two layers by the maximum with zero; the classifier sends an embedding
  row `e` to the logits `e · W + b`, subtracts the row's largest logit, and subtracts the logarithm of the sum of the
  exponentials of what is left.  Each output row depends on the same row of its operands only, which is why a block of
  rows of the result is the same function of the matching block of rows.  The two float words that occur (zero and
  minus infinity) are kept as words: both programs spell them the same way.
-/
import Idealize.ShloMosaic.Lib.ValueIdx
import Idealize.ShloMosaic.PureOps.Ideal

noncomputable section

namespace Cert.Sage

open Idealize.ShloMosaic Idealize.ShloMosaic.ValueIdx

/-- The float word zero, read as an extended real. -/
abbrev zeroW : EReal := Ideal.ofBits .f32 0x00000000#32
/-- The float word minus infinity, read as an extended real. -/
abbrev ninfW : EReal := Ideal.ofBits .f32 0xFF800000#32

/-- One entry of a layer before the cut: column `q` of `(m · Wn + h · Ws) + b` for one node's rows `m`, `h`. -/
def layerLin (mrow hrow : Fin 128 → EReal) (Wn Ws : (⟨2, ![128, 128]⟩ : Shape).Idx → EReal)
    (b : Fin 128 → EReal) (q : Fin 128) : EReal :=
  ((∑ k : Fin 128, mrow k * Wn (ix2 k q)) + (∑ k : Fin 128, hrow k * Ws (ix2 k q))) + b q

/-- One entry of a layer: `layerLin`, cut below at zero when `relu` is set. -/
def layerEntry (relu : Bool) (mrow hrow : Fin 128 → EReal) (Wn Ws : (⟨2, ![128, 128]⟩ : Shape).Idx → EReal)
    (b : Fin 128 → EReal) (q : Fin 128) : EReal :=
  if relu then max (layerLin mrow hrow Wn Ws b q) zeroW else layerLin mrow hrow Wn Ws b q

theorem layerEntry_true (mrow hrow : Fin 128 → EReal) (Wn Ws : (⟨2, ![128, 128]⟩ : Shape).Idx → EReal)
    (b : Fin 128 → EReal) (q : Fin 128) :
    layerEntry true mrow hrow Wn Ws b q = max (layerLin mrow hrow Wn Ws b q) zeroW := rfl

theorem layerEntry_false (mrow hrow : Fin 128 → EReal) (Wn Ws : (⟨2, ![128, 128]⟩ : Shape).Idx → EReal)
    (b : Fin 128 → EReal) (q : Fin 128) :
    layerEntry false mrow hrow Wn Ws b q = layerLin mrow hrow Wn Ws b q := rfl

/-- `layerEntry` depends on its rows, matrices, bias and column only through their values. -/
theorem layerEntry_congr {relu : Bool} {m m' h h' : Fin 128 → EReal} {Wn Wn' Ws Ws' : (⟨2, ![128, 128]⟩ : Shape).Idx → EReal}
    {b b' : Fin 128 → EReal} {q q' : Fin 128} (hm : m = m') (hh : h = h') (hWn : Wn = Wn') (hWs : Ws = Ws') (hb : b = b')
    (hq : q = q') : layerEntry relu m h Wn Ws b q = layerEntry relu m' h' Wn' Ws' b' q' := by
  rw [hm, hh, hWn, hWs, hb, hq]

/-- A layer on `a` nodes: every row by `layerEntry` of the same row of the aggregate and of the features. -/
def layer {a : ℕ} (relu : Bool) (mean h : (⟨2, ![a, 128]⟩ : Shape).Idx → EReal)
    (Wn Ws : (⟨2, ![128, 128]⟩ : Shape).Idx → EReal) (b : Fin 128 → EReal) : (⟨2, ![a, 128]⟩ : Shape).Idx → EReal :=
  fun i => layerEntry relu (fun k => mean (ix2 (i 0) k)) (fun k => h (ix2 (i 0) k)) Wn Ws b (i 1)

theorem layer_ix2 {a : ℕ} (relu : Bool) (mean h : (⟨2, ![a, 128]⟩ : Shape).Idx → EReal)
    (Wn Ws : (⟨2, ![128, 128]⟩ : Shape).Idx → EReal) (b : Fin 128 → EReal) (p : Fin a) (q : Fin 128) :
    layer relu mean h Wn Ws b (ix2 p q)
      = layerEntry relu (fun k => mean (ix2 p k)) (fun k => h (ix2 p k)) Wn Ws b q := rfl

/-- The logit of class `q` for one embedding row. -/
def logit (erow : Fin 128 → EReal) (W : (⟨2, ![128, 16]⟩ : Shape).Idx → EReal) (b : Fin 16 → EReal) (q : Fin 16) : EReal :=
  (∑ k : Fin 128, erow k * W (ix2 k q)) + b q

/-- The largest of sixteen values, as the fold of `max` from minus infinity. -/
def rowMax (z : Fin 16 → EReal) : EReal := (Finset.univ : Finset (Fin 16)).fold max ninfW z

/-- Folding from a value never ends below it: taking the maximum with the starting value again changes nothing. -/
theorem max_start_rowMax (z : Fin 16 → EReal) : max ninfW (rowMax z) = rowMax z :=
  max_eq_right ((Finset.le_fold_max _).2 (Or.inl le_rfl))

/-- One entry of the log-softmax of a row of logits `z`: the logit less the row's maximum, less the logarithm of the
    sum of the exponentials of the shifted logits. -/
def lsmEntry (z : Fin 16 → EReal) (q : Fin 16) : EReal :=
  (z q - rowMax z) - Ideal.log (∑ r : Fin 16, Ideal.exp (z r - rowMax z))

/-- The classifier's entry depends on the embedding row, matrix, bias and class only through their values. -/
theorem lsm_logit_congr {e e' : Fin 128 → EReal} {W W' : (⟨2, ![128, 16]⟩ : Shape).Idx → EReal} {b b' : Fin 16 → EReal}
    {q q' : Fin 16} (he : e = e') (hW : W = W') (hb : b = b') (hq : q = q') :
    lsmEntry (logit e W b) q = lsmEntry (logit e' W' b') q' := by
  rw [he, hW, hb, hq]

/-- The classifier on `a` nodes: the log-softmax of every row's logits. -/
def classify {a : ℕ} (emb : (⟨2, ![a, 128]⟩ : Shape).Idx → EReal) (W : (⟨2, ![128, 16]⟩ : Shape).Idx → EReal)
    (b : Fin 16 → EReal) : (⟨2, ![a, 16]⟩ : Shape).Idx → EReal :=
  fun i => lsmEntry (logit (fun k => emb (ix2 (i 0) k)) W b) (i 1)

theorem classify_ix2 {a : ℕ} (emb : (⟨2, ![a, 128]⟩ : Shape).Idx → EReal) (W : (⟨2, ![128, 16]⟩ : Shape).Idx → EReal)
    (b : Fin 16 → EReal) (p : Fin a) (q : Fin 16) :
    classify emb W b (ix2 p q) = lsmEntry (logit (fun k => emb (ix2 p k)) W b) q := rfl

end Cert.Sage

end
-- ==== Proof.KAgg.lean ====
/-
  The graph side of the network, shared by both programs, and the network as one function of its thirteen arguments.

  The edge list's two rows are the source and the destination of every edge.  A node's inverse degree is one over the
  larger of one and the number of edges that end at it.  The aggregate of a feature array gathers the feature row of
  every edge's source (a negative index counted from the end), adds the gathered rows into the rows of the edges'
  destinations, and scales each row by the destination's inverse degree.  These are host operations that both programs
  apply in the same order, so they are kept here as they are printed and never opened: a layer of the network is
  `Sage.layer` of the aggregate of the features and the features themselves, the embedding is three layers (the first
  two cut at zero), and the class scores are `Sage.classify` of the embedding.
-/
import proofs.«113549_j29454885716510_1_alg».proof.Proof.Gen.KernelIdeal
import proofs.«113549_j29454885716510_1_alg».proof.Proof.Spec
import Idealize.ShloMosaic.PureOps.Ideal

noncomputable section

namespace Cert.KernelIdeal.Net

open Cert.KernelIdeal Cert.KernelIdeal.Gen Idealize.ShloMosaic Idealize.ShloMosaic.ValueIdx Cert.Sage

/-- The sources of the edges: the edge list's first row. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destinations of the edges: the edge list's second row. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- One over the larger of one and the number of edges ending at each node. -/
def dinvOf (d : (⟨S1600000, .i32⟩ : BufTy).Contents (Elt Ideal)) : (⟨S100000, .f32⟩ : BufTy).Contents (Elt Ideal) :=
  Host.divf (F := Ideal) (broadcastInDim S100000 ![] bcast_S_S100000 (constant (F := Ideal) S_ .f32 0x3F800000#32))
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 d)
        (broadcastInDim S1600000 ![] bcast_S_S1600000 (constant (F := Ideal) S_ .f32 0x3F800000#32)))
      (broadcastInDim S100000 ![] bcast_S_S100000 (constant (F := Ideal) S_ .f32 0x3F800000#32)))

/-- The mean over incoming edges of the sources' feature rows: gather by source, add into the destinations' rows,
    scale by the inverse degrees `dv`. -/
def meanOf (h : (⟨S100000x128, .f32⟩ : BufTy).Contents (Elt Ideal)) (s d : (⟨S1600000, .i32⟩ : BufTy).Contents (Elt Ideal))
    (dv : (⟨S100000, .f32⟩ : BufTy).Contents (Elt Ideal)) : (⟨S100000x128, .f32⟩ : BufTy).Contents (Elt Ideal) :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0 dv))

/-- One layer of the network on the whole graph. -/
def sageLayer (relu : Bool) (h : (⟨S100000x128, .f32⟩ : BufTy).Contents (Elt Ideal))
    (e : (⟨S2x1600000, .i32⟩ : BufTy).Contents (Elt Ideal)) (Wn Ws : (⟨S128x128, .f32⟩ : BufTy).Contents (Elt Ideal))
    (b : (⟨S128, .f32⟩ : BufTy).Contents (Elt Ideal)) : (⟨S100000x128, .f32⟩ : BufTy).Contents (Elt Ideal) :=
  layer relu (meanOf h (srcOf e) (dstOf e) (dinvOf (dstOf e))) h Wn Ws (fun r => b (ix1 r))

/-- The embedding: three layers, the first two cut at zero. -/
def embedding (x : (⟨S100000x128, .f32⟩ : BufTy).Contents (Elt Ideal)) (e : (⟨S2x1600000, .i32⟩ : BufTy).Contents (Elt Ideal))
    (Wn0 Ws0 : (⟨S128x128, .f32⟩ : BufTy).Contents (Elt Ideal)) (b0 : (⟨S128, .f32⟩ : BufTy).Contents (Elt Ideal))
    (Wn1 Ws1 : (⟨S128x128, .f32⟩ : BufTy).Contents (Elt Ideal)) (b1 : (⟨S128, .f32⟩ : BufTy).Contents (Elt Ideal))
    (Wn2 Ws2 : (⟨S128x128, .f32⟩ : BufTy).Contents (Elt Ideal)) (b2 : (⟨S128, .f32⟩ : BufTy).Contents (Elt Ideal)) :
    (⟨S100000x128, .f32⟩ : BufTy).Contents (Elt Ideal) :=
  sageLayer false (sageLayer true (sageLayer true x e Wn0 Ws0 b0) e Wn1 Ws1 b1) e Wn2 Ws2 b2

/-- The class scores: the log-softmax of the embedding's logits. -/
def scores (emb : (⟨S100000x128, .f32⟩ : BufTy).Contents (Elt Ideal)) (W : (⟨S128x16, .f32⟩ : BufTy).Contents (Elt Ideal))
    (b : (⟨S16, .f32⟩ : BufTy).Contents (Elt Ideal)) : (⟨S100000x16, .f32⟩ : BufTy).Contents (Elt Ideal) :=
  classify emb W (fun r => b (ix1 r))

/-- A layer depends on its operands only through their values. -/
theorem layer_congr {a : ℕ} {relu : Bool} {mean mean' h h' : (⟨2, ![a, 128]⟩ : Shape).Idx → EReal}
    {Wn Wn' Ws Ws' : (⟨2, ![128, 128]⟩ : Shape).Idx → EReal} {b b' : Fin 128 → EReal}
    (hm : mean = mean') (hh : h = h') (hWn : Wn = Wn') (hWs : Ws = Ws') (hb : b = b') :
    layer relu mean h Wn Ws b = layer relu mean' h' Wn' Ws' b' := by
  rw [hm, hh, hWn, hWs, hb]

/-- The classifier depends on its operands only through their values. -/
theorem classify_congr {a : ℕ} {emb emb' : (⟨2, ![a, 128]⟩ : Shape).Idx → EReal}
    {W W' : (⟨2, ![128, 16]⟩ : Shape).Idx → EReal} {b b' : Fin 16 → EReal}
    (he : emb = emb') (hW : W = W') (hb : b = b') : classify emb W b = classify emb' W' b' := by
  rw [he, hW, hb]

end Cert.KernelIdeal.Net

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPay.lean ====
/-
  What each kernel body stores, read at one entry of its block.

  The three layer bodies compute, on a block of 2000 node rows, `(m · Wn + h · Ws) + b` (the first two followed by the
  maximum with zero): entry `(p, q)` is `Sage.layerEntry` of row `p` of the two row blocks.  The classifier body computes
  the logits of its 2000 rows, their row maxima, the shifted logits, and subtracts the logarithm of the row sums of
  their exponentials: entry `(p, q)` is `Sage.lsmEntry` of row `p`'s logits.  A change of float format is the identity
  on the extended reals, a matrix product into a zero accumulator is the plain sum over the contracted axis, a lane
  maximum is the fold of `max` from its accumulator and a lane sum the plain sum.
-/
import proofs.«113549_j29454885716510_1_alg».proof.Proof.Gen.KernelIdeal.Skeleton
import proofs.«113549_j29454885716510_1_alg».proof.Proof.Spec
import proofs.«113549_j29454885716510_1_alg».proof.Proof.LibRowOps
import proofs.«113549_j29454885716510_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Sage

/-! ## The two matrix products -/

/-- The 2000×128 by 128×128 product into zero, at `(p, q)`: the sum over the shared axis. -/
theorem mm128 (A : FVec Ideal S2000x128 .bf16) (B : FVec Ideal S128x128 .bf16) (p : Fin 2000) (q : Fin 128) :
    matmul dot_S2000x128_S128x128_S2000x128_1_0_0_1_n_n none A B (constant S2000x128 .f32 0x00000000#32) (ix2 p q)
      = ∑ k : Fin 128, A (ix2 p k) * B (ix2 k q) := by
  refine (Ideal.matmul_constant_zero_apply dot_S2000x128_S128x128_S2000x128_1_0_0_1_n_n none A B (ix2 p q)).trans ?_
  refine Cert.LibRowOps.sum_contr dot_S2000x128_S128x128_S2000x128_1_0_0_1_n_n rfl rfl ?_ ?_ ?_ ?_ A B p q
  · intro j k
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  · intro j k
    exact dot_S2000x128_S128x128_S2000x128_1_0_0_1_n_n.lhsIdx_val_of_single rfl j k
  · intro j k
    exact dot_S2000x128_S128x128_S2000x128_1_0_0_1_n_n.rhsIdx_val_of_single rfl j k
  · intro j k
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The 2000×128 by 128×16 product into zero, at `(p, q)`: the sum over the shared axis. -/
theorem mm16 (A : FVec Ideal S2000x128 .bf16) (B : FVec Ideal S128x16 .bf16) (p : Fin 2000) (q : Fin 16) :
    matmul dot_S2000x128_S128x16_S2000x16_1_0_0_1_n_n none A B (constant S2000x16 .f32 0x00000000#32) (ix2 p q)
      = ∑ k : Fin 128, A (ix2 p k) * B (ix2 k q) := by
  refine (Ideal.matmul_constant_zero_apply dot_S2000x128_S128x16_S2000x16_1_0_0_1_n_n none A B (ix2 p q)).trans ?_
  refine Cert.LibRowOps.sum_contr dot_S2000x128_S128x16_S2000x16_1_0_0_1_n_n rfl rfl ?_ ?_ ?_ ?_ A B p q
  · intro j k
    unfold DotDims.lhsIdx
    rw [dif_neg (show ¬(0 : Fin S2000x128.rank) ∈ dot_S2000x128_S128x16_S2000x16_1_0_0_1_n_n.lhsBatch by decide),
      dif_pos (show (0 : Fin S2000x128.rank) ∈ dot_S2000x128_S128x16_S2000x16_1_0_0_1_n_n.lhsNonContracting by decide)]
    rfl
  · intro j k
    exact dot_S2000x128_S128x16_S2000x16_1_0_0_1_n_n.lhsIdx_val_of_single rfl j k
  · intro j k
    exact dot_S2000x128_S128x16_S2000x16_1_0_0_1_n_n.rhsIdx_val_of_single rfl j k
  · intro j k
    unfold DotDims.rhsIdx
    rw [dif_neg (show ¬(1 : Fin S128x16.rank) ∈ dot_S2000x128_S128x16_S2000x16_1_0_0_1_n_n.rhsBatch by decide),
      dif_pos (show (1 : Fin S128x16.rank) ∈ dot_S2000x128_S128x16_S2000x16_1_0_0_1_n_n.rhsNonContracting by decide)]
    rfl

/-! ## A layer body -/

/-- Two products into zero, added, plus the bias row laid along every row: entry `(p, q)` is `layerLin` of row `p`. -/
theorem lin_apply (A0 A1 : FVec Ideal S2000x128 .bf16) (B0 B1 : FVec Ideal S128x128 .bf16) (x4 : FVec Ideal S1x128 .f32)
    (hb : S1x128.Broadcasts S2000x128) (p : Fin 2000) (q : Fin 128) :
    addf (addf (matmul dot_S2000x128_S128x128_S2000x128_1_0_0_1_n_n none A0 B0 (constant S2000x128 .f32 0x00000000#32))
        (matmul dot_S2000x128_S128x128_S2000x128_1_0_0_1_n_n none A1 B1 (constant S2000x128 .f32 0x00000000#32)))
      (broadcastTo S2000x128 x4 hb) (ix2 p q)
      = layerLin (fun k => A0 (ix2 p k)) (fun k => A1 (ix2 p k)) B0 B1 (fun r => x4 (ix2 (0 : Fin 1) r)) q := by
  unfold layerLin
  refine congrArg₂ (· + ·) (congrArg₂ (· + ·) (mm128 A0 B0 p q) (mm128 A1 B1 p q)) ?_
  exact broadcastTo_1b_ab_apply x4 hb p q

/-- The third layer's body (no cut). -/
theorem pay2_apply (x0 x1 : Vec Ideal S2000x128 .f32) (x2 x3 : Vec Ideal S128x128 .f32) (x4 : Vec Ideal S1x128 .f32)
    (p : Fin 2000) (q : Fin 128) :
    k2_pay1 (F := Ideal) x0 x1 x2 x3 x4 (ix2 p q)
      = layerEntry false (fun k => x0 (ix2 p k)) (fun k => x1 (ix2 p k)) x2 x3 (fun r => x4 (ix2 (0 : Fin 1) r)) q := by
  rw [layerEntry_false]
  unfold k2_pay1
  rw [shapeCast_self x0, shapeCast_self x1, shapeCast_self x4]
  exact lin_apply _ _ _ _ x4 _ p q

/-- The second layer's body. -/
theorem pay1_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = layerEntry true (fun k => x0 (ix2 p k)) (fun k => x1 (ix2 p k)) x2 x3 (fun r => x4 (ix2 (0 : Fin 1) r)) q := by
  rw [layerEntry_true]
  unfold k1_pay1
  rw [shapeCast_self x0, shapeCast_self x1, shapeCast_self x4]
  exact congrArg₂ max (lin_apply _ _ _ _ x4 _ p q) rfl

/-- The first layer's body. -/
theorem pay0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = layerEntry true (fun k => x0 (ix2 p k)) (fun k => x1 (ix2 p k)) x2 x3 (fun r => x4 (ix2 (0 : Fin 1) r)) q := by
  rw [layerEntry_true]
  unfold k0_pay1
  rw [shapeCast_self x0, shapeCast_self x4]
  exact congrArg₂ max (lin_apply _ _ _ _ x4 _ p q) rfl

/-! ## The classifier body -/

/-- The log-softmax of the rows of a 2000×16 block `Z`, as the body spells it (row maxima and row sums kept as columns),
    at `(p, q)`: `lsmEntry` of row `p`. -/
theorem lsm_block (Z : FVec Ideal S2000x16 .f32) (hr : S2000x16.Reduces [1] S2000) (hc : S2000.ShapeCasts S2000x1)
    (hb : S2000x1.Broadcasts S2000x16) (p : Fin 2000) (q : Fin 16) :
    subf (subf Z (broadcastTo S2000x16 (shapeCast S2000x1 (multiReduction .maximumf [1] S2000 Z 0xFF800000#32 hr (.inl rfl) rfl) hc) hb))
      (broadcastTo S2000x16 (log (shapeCast S2000x1 (multiReduction .add [1] S2000
        (exp (subf Z (broadcastTo S2000x16 (shapeCast S2000x1 (multiReduction .maximumf [1] S2000 Z 0xFF800000#32 hr (.inl rfl) rfl) hc) hb)))
        0x00000000#32 hr (.inl rfl) rfl) hc)) hb) (ix2 p q)
      = lsmEntry (fun r => Z (ix2 p r)) q := by
  have hmax : ∀ r : Fin 16, broadcastTo S2000x16 (shapeCast S2000x1 (multiReduction .maximumf [1] S2000 Z 0xFF800000#32 hr (.inl rfl) rfl) hc) hb (ix2 p r)
      = rowMax (fun r => Z (ix2 p r)) := by
    intro r
    refine (Cert.LibColumn.broadcastTo_a1_ab_apply _ hb p r).trans ?_
    refine (Cert.LibColumn.shapeCast_a_a1_apply _ hc p (0 : Fin 1)).trans ?_
    refine (Ideal.multiReduction_maximumf_single Z 0xFF800000#32 hr (.inl rfl) rfl (ix1 p)).trans ?_
    unfold rowMax
    refine congrArg (Finset.fold max _ · Finset.univ) ?_
    funext k
    exact congrArg Z (Cert.LibRowOps.lift_row hr p k)
  have hsh : ∀ r : Fin 16, subf Z (broadcastTo S2000x16 (shapeCast S2000x1 (multiReduction .maximumf [1] S2000 Z 0xFF800000#32 hr (.inl rfl) rfl) hc) hb) (ix2 p r)
      = Z (ix2 p r) - rowMax (fun r => Z (ix2 p r)) := fun r => congrArg (Z (ix2 p r) - ·) (hmax r)
  unfold lsmEntry
  refine congrArg₂ (· - ·) (hsh q) ?_
  refine (Cert.LibColumn.broadcastTo_a1_ab_apply _ hb p q).trans ?_
  show Ideal.log (shapeCast S2000x1 _ hc (ix2 p (0 : Fin 1))) = _
  refine congrArg Ideal.log ?_
  refine (Cert.LibColumn.shapeCast_a_a1_apply _ hc p (0 : Fin 1)).trans ?_
  refine (Cert.LibRowOps.multiReduction_row_apply _ 0x00000000#32 hr (.inl rfl) rfl p).trans ?_
  refine Finset.sum_congr rfl fun r _ => ?_
  exact congrArg Ideal.exp (hsh r)

/-- The classifier's body. -/
theorem pay3_apply (x0 : Vec Ideal S2000x128 .f32) (x1 : Vec Ideal S128x16 .f32) (x2 : Vec Ideal S1x16 .f32)
    (p : Fin 2000) (q : Fin 16) :
    k3_pay1 (F := Ideal) x0 x1 x2 (ix2 p q)
      = lsmEntry (logit (fun k => x0 (ix2 p k)) x1 (fun r => x2 (ix2 (0 : Fin 1) r))) q := by
  unfold k3_pay1
  dsimp only
  rw [shapeCast_self x0, shapeCast_self x2]
  refine (lsm_block _ _ _ _ p q).trans ?_
  refine congrArg (lsmEntry · q) ?_
  funext r
  unfold logit
  exact congrArg₂ (· + ·) (mm16 _ _ p r) (broadcastTo_1b_ab_apply x2 _ p r)

end Cert.KernelIdeal.Pay

end
-- ==== Proof.KFinal0.lean ====
/-
  Region 0: the whole output array of the layer, as one function of the arrays the region finds.

  The grid has fifty points; point `t` reads rows `2000 t … 2000 t + 1999` of the aggregate and of the features, the two
  weight matrices and the bias row whole, and writes the same rows of the result.  Since a row of a layer depends on
  the same row of its operands only, what point `t` writes back is block `t` of `Sage.layer` of the whole arrays; the
  fifty blocks tile the hundred thousand rows, so the array ends holding `Sage.layer` of the arrays.
-/
import proofs.«113549_j29454885716510_1_alg».proof.Proof.Gen.KernelIdeal.Frame
import proofs.«113549_j29454885716510_1_alg».proof.Proof.KPay

set_option maxRecDepth 16384

noncomputable section

namespace Cert.KernelIdeal.Final0

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: the result array's closed form. -/
def G (c : Dev nD) : S100000x128.Idx → EReal :=
  layer true (V c main_v24) (V c main_arg0) (V c main_arg2) (V c main_arg3) (fun r => V c main_v25 (ix2 (0 : Fin 1) r))

/-- The body's one store covers its whole block, so what it leaves is its payload of the loaded blocks. -/
theorem out_eq (x0 x1 : Vec Ideal S2000x128 .f32) (x2 x3 : Vec Ideal S128x128 .f32) (x4 : Vec Ideal S1x128 .f32) :
    out0_5 (F := Ideal) x0 x1 x2 x3 x4 = k0_pay1 x0 x1 x2 x3 x4 := by
  unfold out0_5
  rw [View.canon_unit_zero hz]
  simp only [View.ld_unit_zero (S := S2000x128) hz, View.ld_unit_zero (S := S128x128) hz, View.ld_unit_zero (S := S1x128) hz]

/-- The printed index maps over the grid: the two row-blocked inputs move with the output, block row `t`; the
    matrices and the bias stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5, out_eq]
  obtain ⟨e00, e01, e10, e11, e20, e21, e30, e31, e40, e41, e50, e51⟩ := idx_facts t
  funext j
  show k0_pay1 (iblk0 V c 0 t) (iblk0 V c 1 t) (iblk0 V c 2 t) (iblk0 V c 3 t) (iblk0 V c 4 t) j
    = G V c (((cfg0.win 5).blk t).view.emb j)
  obtain ⟨p, q, rfl⟩ : ∃ (p : Fin 2000) (q : Fin 128), j = ix2 p q := ⟨j 0, j 1, eq_ix2 j⟩
  refine (pay0_apply (iblk0 V c 0 t) (iblk0 V c 1 t) (iblk0 V c 2 t) (iblk0 V c 3 t) (iblk0 V c 4 t) p q).trans ?_
  unfold G layer
  refine layerEntry_congr ?_ ?_ ?_ ?_ ?_ ?_
  · funext k
    show V c main_v24 (((cfg0.win 0).blk t).view.emb (ix2 p k)) = V c main_v24 (ix2 ((((cfg0.win 5).blk t).view.emb (ix2 p q)) 0) k)
    refine congrArg (V c main_v24) ?_
    funext a; apply Fin.ext
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  · funext k
    show V c main_arg0 (((cfg0.win 1).blk t).view.emb (ix2 p k)) = V c main_arg0 (ix2 ((((cfg0.win 5).blk t).view.emb (ix2 p q)) 0) k)
    refine congrArg (V c main_arg0) ?_
    funext a; apply Fin.ext
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  · funext y
    show V c main_arg2 (((cfg0.win 2).blk t).view.emb y) = V c main_arg2 y
    refine congrArg (V c main_arg2) ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg3 (((cfg0.win 3).blk t).view.emb y) = V c main_arg3 y
    refine congrArg (V c main_arg3) ?_
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext r
    show V c main_v25 (((cfg0.win 4).blk t).view.emb (ix2 (0 : Fin 1) r)) = V c main_v25 (ix2 (0 : Fin 1) r)
    refine congrArg (V c main_v25) ?_
    funext a; apply Fin.ext
    match a with
    | ⟨0, _⟩ => show win0_4.index t (0 : Fin 2) * 1 + 1 * 0 = 0; omega
    | ⟨1, _⟩ => show win0_4.index t (1 : Fin 2) * 128 + 1 * r.val = r.val; omega
  · apply Fin.ext
    show q.val = win0_5.index t (1 : Fin 2) * 128 + 1 * q.val
    omega

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every row of the array lies in the block of the point numbered by the row's quotient by 2000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨e00, e01, e10, e11, e20, e21, e30, e31, e40, e41, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The array after the region: the layer of the arrays the region finds. -/
theorem final (c : Dev nD) : (dat0 (F := Ideal) V c).arrAt 5 cfg0.N = G V c :=
  (dat0 (F := Ideal) V c).arrAt_eq_of_cover 5 (G V c) (fun t _ => flushed_eq V c t) (cover)

end Cert.KernelIdeal.Final0

end
-- ==== Proof.KFinal1.lean ====
/-
  Region 1: the whole output array of the layer, as one function of the arrays the region finds.

  The grid has fifty points; point `t` reads rows `2000 t … 2000 t + 1999` of the aggregate and of the features, the two
  weight matrices and the bias row whole, and writes the same rows of the result.  Since a row of a layer depends on
  the same row of its operands only, what point `t` writes back is block `t` of `Sage.layer` of the whole arrays; the
  fifty blocks tile the hundred thousand rows, so the array ends holding `Sage.layer` of the arrays.
-/
import proofs.«113549_j29454885716510_1_alg».proof.Proof.Gen.KernelIdeal.Frame
import proofs.«113549_j29454885716510_1_alg».proof.Proof.KPay

set_option maxRecDepth 16384

noncomputable section

namespace Cert.KernelIdeal.Final1

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: the result array's closed form. -/
def G (c : Dev nD) : S100000x128.Idx → EReal :=
  layer true (V c main_v39) (V c main_v26) (V c main_arg5) (V c main_arg6) (fun r => V c main_v40 (ix2 (0 : Fin 1) r))

/-- The body's one store covers its whole block, so what it leaves is its payload of the loaded blocks. -/
theorem out_eq (x0 x1 : Vec Ideal S2000x128 .f32) (x2 x3 : Vec Ideal S128x128 .f32) (x4 : Vec Ideal S1x128 .f32) :
    out1_5 (F := Ideal) x0 x1 x2 x3 x4 = k1_pay1 x0 x1 x2 x3 x4 := by
  unfold out1_5
  rw [View.canon_unit_zero hz]
  simp only [View.ld_unit_zero (S := S2000x128) hz, View.ld_unit_zero (S := S128x128) hz, View.ld_unit_zero (S := S1x128) hz]

/-- The printed index maps over the grid: the two row-blocked inputs move with the output, block row `t`; the
    matrices and the bias stay at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5, out_eq]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) j
    = G V c (((cfg1.win 5).blk t).view.emb j)
  obtain ⟨p, q, rfl⟩ : ∃ (p : Fin 2000) (q : Fin 128), j = ix2 p q := ⟨j 0, j 1, eq_ix2 j⟩
  refine (pay1_apply (iblk1 V c 0 t) (iblk1 V c 1 t) (iblk1 V c 2 t) (iblk1 V c 3 t) (iblk1 V c 4 t) p q).trans ?_
  unfold G layer
  refine layerEntry_congr ?_ ?_ ?_ ?_ ?_ ?_
  · funext k
    show V c main_v39 (((cfg1.win 0).blk t).view.emb (ix2 p k)) = V c main_v39 (ix2 ((((cfg1.win 5).blk t).view.emb (ix2 p q)) 0) k)
    refine congrArg (V c main_v39) ?_
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  · funext k
    show V c main_v26 (((cfg1.win 1).blk t).view.emb (ix2 p k)) = V c main_v26 (ix2 ((((cfg1.win 5).blk t).view.emb (ix2 p q)) 0) k)
    refine congrArg (V c main_v26) ?_
    funext a; apply Fin.ext
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  · funext y
    show V c main_arg5 (((cfg1.win 2).blk t).view.emb y) = V c main_arg5 y
    refine congrArg (V c main_arg5) ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg6 (((cfg1.win 3).blk t).view.emb y) = V c main_arg6 y
    refine congrArg (V c main_arg6) ?_
    funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext r
    show V c main_v40 (((cfg1.win 4).blk t).view.emb (ix2 (0 : Fin 1) r)) = V c main_v40 (ix2 (0 : Fin 1) r)
    refine congrArg (V c main_v40) ?_
    funext a; apply Fin.ext
    match a with
    | ⟨0, _⟩ => show win1_4.index t (0 : Fin 2) * 1 + 1 * 0 = 0; omega
    | ⟨1, _⟩ => show win1_4.index t (1 : Fin 2) * 128 + 1 * r.val = r.val; omega
  · apply Fin.ext
    show q.val = win1_5.index t (1 : Fin 2) * 128 + 1 * q.val
    omega

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Every row of the array lies in the block of the point numbered by the row's quotient by 2000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 2000, by show (i 0).val / 2000 < 50; omega⟩
  obtain ⟨e00, e01, e10, e11, e20, e21, e30, e31, e40, e41, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The array after the region: the layer of the arrays the region finds. -/
theorem final (c : Dev nD) : (dat1 (F := Ideal) V c).arrAt 5 cfg1.N = G V c :=
  (dat1 (F := Ideal) V c).arrAt_eq_of_cover 5 (G V c) (fun t _ => flushed_eq V c t) (cover)

end Cert.KernelIdeal.Final1

end
-- ==== Proof.KHostA.lean ====
/-
  What the boundaries of @main hold, up to the second layer's result.

  @main alternates stretches of host operations with launched regions.  A stretch leaves every buffer it does not write
  as it found it and each buffer it writes at its operation's value of the operands; a region leaves its output array
  at the closed form of the arrays it found and every other buffer as it found it.  Walking the boundaries in order:
  after the first stretch the sources, the destinations and the inverse degrees of the edges are in place, and the
  first layer's aggregate and bias row; the first region leaves the first layer's result; the second stretch and region
  do the same one layer up.  The arguments are never written.
-/
import proofs.«113549_j29454885716510_1_alg».proof.Proof.Gen.KernelIdeal.Frame
import proofs.«113549_j29454885716510_1_alg».proof.Proof.KAgg
import proofs.«113549_j29454885716510_1_alg».proof.Proof.KFinal0
import proofs.«113549_j29454885716510_1_alg».proof.Proof.KFinal1
import Idealize.ShloMosaic.Lib.StableHlo.Run
import Idealize.ShloMosaic.Lib.ValueLayout

set_option maxRecDepth 16384
set_option maxHeartbeats 4000000

noncomputable section

namespace Cert.KernelIdeal.Walk

open Cert.KernelIdeal Cert.KernelIdeal.Gen Cert.KernelIdeal.Net Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the first stretch -/

theorem W1_arg0 (c : Dev nD) : W1 m ρ c (Proc.devRef .tc main_arg0) = (m ((c : Thread nD τ).loc main_arg0)) := by
  dsimp only [W1, hostOps0]
  after_results_simp <;> rfl
theorem W1_arg2 (c : Dev nD) : W1 m ρ c (Proc.devRef .tc main_arg2) = (m ((c : Thread nD τ).loc main_arg2)) := by
  dsimp only [W1, hostOps0]
  after_results_simp <;> rfl
theorem W1_arg3 (c : Dev nD) : W1 m ρ c (Proc.devRef .tc main_arg3) = (m ((c : Thread nD τ).loc main_arg3)) := by
  dsimp only [W1, hostOps0]
  after_results_simp <;> rfl
theorem W1_arg5 (c : Dev nD) : W1 m ρ c (Proc.devRef .tc main_arg5) = (m ((c : Thread nD τ).loc main_arg5)) := by
  dsimp only [W1, hostOps0]
  after_results_simp <;> rfl
theorem W1_arg6 (c : Dev nD) : W1 m ρ c (Proc.devRef .tc main_arg6) = (m ((c : Thread nD τ).loc main_arg6)) := by
  dsimp only [W1, hostOps0]
  after_results_simp <;> rfl
theorem W1_arg7 (c : Dev nD) : W1 m ρ c (Proc.devRef .tc main_arg7) = (m ((c : Thread nD τ).loc main_arg7)) := by
  dsimp only [W1, hostOps0]
  after_results_simp <;> rfl
theorem W1_arg8 (c : Dev nD) : W1 m ρ c (Proc.devRef .tc main_arg8) = (m ((c : Thread nD τ).loc main_arg8)) := by
  dsimp only [W1, hostOps0]
  after_results_simp <;> rfl
theorem W1_arg9 (c : Dev nD) : W1 m ρ c (Proc.devRef .tc main_arg9) = (m ((c : Thread nD τ).loc main_arg9)) := by
  dsimp only [W1, hostOps0]
  after_results_simp <;> rfl
theorem W1_arg10 (c : Dev nD) : W1 m ρ c (Proc.devRef .tc main_arg10) = (m ((c : Thread nD τ).loc main_arg10)) := by
  dsimp only [W1, hostOps0]
  after_results_simp <;> rfl
theorem W1_arg11 (c : Dev nD) : W1 m ρ c (Proc.devRef .tc main_arg11) = (m ((c : Thread nD τ).loc main_arg11)) := by
  dsimp only [W1, hostOps0]
  after_results_simp <;> rfl
theorem W1_arg12 (c : Dev nD) : W1 m ρ c (Proc.devRef .tc main_arg12) = (m ((c : Thread nD τ).loc main_arg12)) := by
  dsimp only [W1, hostOps0]
  after_results_simp <;> rfl
theorem W1_v1 (c : Dev nD) : W1 m ρ c (Proc.devRef .tc main_v1) = (srcOf (m ((c : Thread nD τ).loc main_arg1))) := by
  dsimp only [W1, hostOps0]
  after_results_simp <;> rfl
theorem W1_v3 (c : Dev nD) : W1 m ρ c (Proc.devRef .tc main_v3) = (dstOf (m ((c : Thread nD τ).loc main_arg1))) := by
  dsimp only [W1, hostOps0]
  after_results_simp <;> rfl
theorem W1_v11 (c : Dev nD) : W1 m ρ c (Proc.devRef .tc main_v11) = (dinvOf (dstOf (m ((c : Thread nD τ).loc main_arg1)))) := by
  dsimp only [W1, hostOps0]
  after_results_simp <;> rfl
/-- The first layer's aggregate: the mean over incoming edges of the input features. -/
theorem W1_v24 (c : Dev nD) : W1 m ρ c (Proc.devRef .tc main_v24) = meanOf (m ((c : Thread nD τ).loc main_arg0)) (srcOf (m ((c : Thread nD τ).loc main_arg1))) (dstOf (m ((c : Thread nD τ).loc main_arg1))) (dinvOf (dstOf (m ((c : Thread nD τ).loc main_arg1)))) := by
  dsimp only [W1, hostOps0]
  after_results_simp <;> rfl
/-- The first layer's bias as a one-row matrix. -/
theorem W1_v25 (c : Dev nD) : W1 m ρ c (Proc.devRef .tc main_v25) = shapeCast S1x128 (m ((c : Thread nD τ).loc main_arg4)) shapeCasts_S128_S1x128 := by
  dsimp only [W1, hostOps0]
  after_results_simp <;> rfl

/-! ## After the first region -/

theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)
theorem W2_v1 (c : Dev nD) : W2 m ρ c (Proc.devRef .tc main_v1) = (srcOf (m ((c : Thread nD τ).loc main_arg1))) :=
  (W2_of_ne m ρ c main_v1 (by decide)).trans (W1_v1 m ρ c)
theorem W2_v3 (c : Dev nD) : W2 m ρ c (Proc.devRef .tc main_v3) = (dstOf (m ((c : Thread nD τ).loc main_arg1))) :=
  (W2_of_ne m ρ c main_v3 (by decide)).trans (W1_v3 m ρ c)
theorem W2_v11 (c : Dev nD) : W2 m ρ c (Proc.devRef .tc main_v11) = (dinvOf (dstOf (m ((c : Thread nD τ).loc main_arg1)))) :=
  (W2_of_ne m ρ c main_v11 (by decide)).trans (W1_v11 m ρ c)
/-- The first layer's result. -/
theorem W2_v26 (c : Dev nD) : W2 m ρ c (Proc.devRef .tc main_v26) = (sageLayer true (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ((Final0.final (V1 m ρ) c).trans ?_)
  unfold Final0.G sageLayer
  exact layer_congr (W1_v24 m ρ c) (W1_arg0 m ρ c) (W1_arg2 m ρ c) (W1_arg3 m ρ c)
    (funext fun r => (congrFun (W1_v25 m ρ c) (ix2 (0 : Fin 1) r)).trans (shapeCast_a_1a_apply _ _ (0 : Fin 1) r))

/-! ## After the second stretch -/

theorem W3_arg5 (c : Dev nD) : W3 m ρ c (Proc.devRef .tc main_arg5) = (m ((c : Thread nD τ).loc main_arg5)) := by
  dsimp only [W3, hostOps1]
  after_results_simp
  exact W2_arg5 m ρ c
theorem W3_arg6 (c : Dev nD) : W3 m ρ c (Proc.devRef .tc main_arg6) = (m ((c : Thread nD τ).loc main_arg6)) := by
  dsimp only [W3, hostOps1]
  after_results_simp
  exact W2_arg6 m ρ c
theorem W3_arg8 (c : Dev nD) : W3 m ρ c (Proc.devRef .tc main_arg8) = (m ((c : Thread nD τ).loc main_arg8)) := by
  dsimp only [W3, hostOps1]
  after_results_simp
  exact W2_arg8 m ρ c
theorem W3_arg9 (c : Dev nD) : W3 m ρ c (Proc.devRef .tc main_arg9) = (m ((c : Thread nD τ).loc main_arg9)) := by
  dsimp only [W3, hostOps1]
  after_results_simp
  exact W2_arg9 m ρ c
theorem W3_arg10 (c : Dev nD) : W3 m ρ c (Proc.devRef .tc main_arg10) = (m ((c : Thread nD τ).loc main_arg10)) := by
  dsimp only [W3, hostOps1]
  after_results_simp
  exact W2_arg10 m ρ c
theorem W3_arg11 (c : Dev nD) : W3 m ρ c (Proc.devRef .tc main_arg11) = (m ((c : Thread nD τ).loc main_arg11)) := by
  dsimp only [W3, hostOps1]
  after_results_simp
  exact W2_arg11 m ρ c
theorem W3_arg12 (c : Dev nD) : W3 m ρ c (Proc.devRef .tc main_arg12) = (m ((c : Thread nD τ).loc main_arg12)) := by
  dsimp only [W3, hostOps1]
  after_results_simp
  exact W2_arg12 m ρ c
theorem W3_v1 (c : Dev nD) : W3 m ρ c (Proc.devRef .tc main_v1) = (srcOf (m ((c : Thread nD τ).loc main_arg1))) := by
  dsimp only [W3, hostOps1]
  after_results_simp
  exact W2_v1 m ρ c
theorem W3_v3 (c : Dev nD) : W3 m ρ c (Proc.devRef .tc main_v3) = (dstOf (m ((c : Thread nD τ).loc main_arg1))) := by
  dsimp only [W3, hostOps1]
  after_results_simp
  exact W2_v3 m ρ c
theorem W3_v11 (c : Dev nD) : W3 m ρ c (Proc.devRef .tc main_v11) = (dinvOf (dstOf (m ((c : Thread nD τ).loc main_arg1)))) := by
  dsimp only [W3, hostOps1]
  after_results_simp
  exact W2_v11 m ρ c
theorem W3_v26 (c : Dev nD) : W3 m ρ c (Proc.devRef .tc main_v26) = (sageLayer true (m ((c : Thread nD τ).loc main_arg0)) (m ((c : Thread nD τ).loc main_arg1)) (m ((c : Thread nD τ).loc main_arg2)) (m ((c : Thread nD τ).loc main_arg3)) (m ((c : Thread nD τ).loc main_arg4))) := by
  dsimp only [W3, hostOps1]
  after_results_simp
  exact W2_v26 m ρ c
/-- The second layer's aggregate: the mean over incoming edges of the first layer's result. -/
theorem W3_v39 (c : Dev nD) : W3 m ρ c (Proc.devRef .tc main_v39) = meanOf (sageLayer true (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) (dinvOf (dstOf (m ((c : Thread nD τ).loc main_arg1)))) := by
  dsimp only [W3, hostOps1]
  after_results_simp
  rw [W2_v3 m ρ c, W2_v26 m ρ c, W2_v1 m ρ c, W2_v11 m ρ c]
  rfl
/-- The second layer's bias as a one-row matrix. -/
theorem W3_v40 (c : Dev nD) : W3 m ρ c (Proc.devRef .tc main_v40) = shapeCast S1x128 (m ((c : Thread nD τ).loc main_arg7)) shapeCasts_S128_S1x128 := by
  dsimp only [W3, hostOps1]
  after_results_simp
  rw [W2_arg7 m ρ c]
  rfl

/-! ## After the second region -/

theorem W4_arg8 (c : Dev nD) : W4 m ρ c (Proc.devRef .tc main_arg8) = (m ((c : Thread nD τ).loc main_arg8)) :=
  (W4_of_ne m ρ c main_arg8 (by decide)).trans (W3_arg8 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_arg12 (c : Dev nD) : W4 m ρ c (Proc.devRef .tc main_arg12) = (m ((c : Thread nD τ).loc main_arg12)) :=
  (W4_of_ne m ρ c main_arg12 (by decide)).trans (W3_arg12 m ρ c)
theorem W4_v1 (c : Dev nD) : W4 m ρ c (Proc.devRef .tc main_v1) = (srcOf (m ((c : Thread nD τ).loc main_arg1))) :=
  (W4_of_ne m ρ c main_v1 (by decide)).trans (W3_v1 m ρ c)
theorem W4_v3 (c : Dev nD) : W4 m ρ c (Proc.devRef .tc main_v3) = (dstOf (m ((c : Thread nD τ).loc main_arg1))) :=
  (W4_of_ne m ρ c main_v3 (by decide)).trans (W3_v3 m ρ c)
theorem W4_v11 (c : Dev nD) : W4 m ρ c (Proc.devRef .tc main_v11) = (dinvOf (dstOf (m ((c : Thread nD τ).loc main_arg1)))) :=
  (W4_of_ne m ρ c main_v11 (by decide)).trans (W3_v11 m ρ c)
/-- The second layer's result. -/
theorem W4_v41 (c : Dev nD) : W4 m ρ c (Proc.devRef .tc main_v41) = (sageLayer true (sageLayer true (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  refine (W4_arr m ρ c 5).trans ((Final1.final (V3 m ρ) c).trans ?_)
  unfold Final1.G
  exact layer_congr (W3_v39 m ρ c) (W3_v26 m ρ c) (W3_arg5 m ρ c) (W3_arg6 m ρ c)
    (funext fun r => (congrFun (W3_v40 m ρ c) (ix2 (0 : Fin 1) r)).trans (shapeCast_a_1a_apply _ _ (0 : Fin 1) r))

end Cert.KernelIdeal.Walk

end
-- ==== Proof.KFinal2.lean ====
/-
  Region 2: the whole output array of the layer, as one function of the arrays the region finds.

  The grid has fifty points; point `t` reads rows `2000 t … 2000 t + 1999` of the aggregate and of the features, the two
  weight matrices and the bias row whole, and writes the same rows of the result.  Since a row of a layer depends on
  the same row of its operands only, what point `t` writes back is block `t` of `Sage.layer` of the whole arrays; the
  fifty blocks tile the hundred thousand rows, so the array ends holding `Sage.layer` of the arrays.
-/
import proofs.«113549_j29454885716510_1_alg».proof.Proof.Gen.KernelIdeal.Frame
import proofs.«113549_j29454885716510_1_alg».proof.Proof.KPay

set_option maxRecDepth 16384

noncomputable section

namespace Cert.KernelIdeal.Final2

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: the result array's closed form. -/
def G (c : Dev nD) : S100000x128.Idx → EReal :=
  layer false (V c main_v54) (V c main_v41) (V c main_arg8) (V c main_arg9) (fun r => V c main_v55 (ix2 (0 : Fin 1) r))

/-- The body's one store covers its whole block, so what it leaves is its payload of the loaded blocks. -/
theorem out_eq (x0 x1 : Vec Ideal S2000x128 .f32) (x2 x3 : Vec Ideal S128x128 .f32) (x4 : Vec Ideal S1x128 .f32) :
    out2_5 (F := Ideal) x0 x1 x2 x3 x4 = k2_pay1 x0 x1 x2 x3 x4 := by
  unfold out2_5
  rw [View.canon_unit_zero hz]
  simp only [View.ld_unit_zero (S := S2000x128) hz, View.ld_unit_zero (S := S128x128) hz, View.ld_unit_zero (S := S1x128) hz]

/-- The printed index maps over the grid: the two row-blocked inputs move with the output, block row `t`; the
    matrices and the bias stay at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `G`. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5, out_eq]
  obtain ⟨e00, e01, e10, e11, e20, e21, e30, e31, e40, e41, e50, e51⟩ := idx_facts t
  funext j
  show k2_pay1 (iblk2 V c 0 t) (iblk2 V c 1 t) (iblk2 V c 2 t) (iblk2 V c 3 t) (iblk2 V c 4 t) j
    = G V c (((cfg2.win 5).blk t).view.emb j)
  obtain ⟨p, q, rfl⟩ : ∃ (p : Fin 2000) (q : Fin 128), j = ix2 p q := ⟨j 0, j 1, eq_ix2 j⟩
  refine (pay2_apply (iblk2 V c 0 t) (iblk2 V c 1 t) (iblk2 V c 2 t) (iblk2 V c 3 t) (iblk2 V c 4 t) p q).trans ?_
  unfold G layer
  refine layerEntry_congr ?_ ?_ ?_ ?_ ?_ ?_
  · funext k
    show V c main_v54 (((cfg2.win 0).blk t).view.emb (ix2 p k)) = V c main_v54 (ix2 ((((cfg2.win 5).blk t).view.emb (ix2 p q)) 0) k)
    refine congrArg (V c main_v54) ?_
    funext a; apply Fin.ext
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * k.val = k.val; omega
  · funext k
    show V c main_v41 (((cfg2.win 1).blk t).view.emb (ix2 p k)) = V c main_v41 (ix2 ((((cfg2.win 5).blk t).view.emb (ix2 p q)) 0) k)
    refine congrArg (V c main_v41) ?_
    funext a; apply Fin.ext
    match a with
    | ⟨0, _⟩ => show win2_1.index t (0 : Fin 2) * 2000 + 1 * p.val = win2_5.index t (0 : Fin 2) * 2000 + 1 * p.val; omega
    | ⟨1, _⟩ => show win2_1.index t (1 : Fin 2) * 128 + 1 * k.val = k.val; omega
  · funext y
    show V c main_arg8 (((cfg2.win 2).blk t).view.emb y) = V c main_arg8 y
    refine congrArg (V c main_arg8) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_arg9 (((cfg2.win 3).blk t).view.emb y) = V c main_arg9 y
    refine congrArg (V c main_arg9) ?_
    funext a; apply Fin.ext
    match a with
    | ⟨0, _⟩ => show win2_3.index t (0 : Fin 2) * 128 + 1 * (y 0).val = (y 0).val; omega
    | ⟨1, _⟩ => show win2_3.index t (1 : Fin 2) * 128 + 1 * (y 1).val = (y 1).val; omega
  · funext r
    show V c main_v55 (((cfg2.win 4).blk t).view.emb (ix2 (0 : Fin 1) r)) = V c main_v55 (ix2 (0 : Fin 1) r)
    refine congrArg (V c main_v55) ?_
    funext a; apply Fin.ext
    match a with
    | ⟨0, _⟩ => show win2_4.index t (0 : Fin 2) * 1 + 1 * 0 = 0; omega
    | ⟨1, _⟩ => show win2_4.index t (1 : Fin 2) * 128 + 1 * r.val = r.val; omega
  · apply Fin.ext
    show q.val = win2_5.index t (1 : Fin 2) * 128 + 1 * q.val
    omega

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v56).slice (win2_5.rect t)).set ↔ _
  rw [View.set_slice_whole, Rect.mem_set_unit]
  exact Iff.rfl

/-- Every row of the array lies in the block of the point numbered by the row's quotient by 2000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 2000, by show (i 0).val / 2000 < 50; omega⟩
  obtain ⟨e00, e01, e10, e11, e20, e21, e30, e31, e40, e41, e50, e51⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The array after the region: the layer of the arrays the region finds. -/
theorem final (c : Dev nD) : (dat2 (F := Ideal) V c).arrAt 5 cfg2.N = G V c :=
  (dat2 (F := Ideal) V c).arrAt_eq_of_cover 5 (G V c) (fun t _ => flushed_eq V c t) (cover)

end Cert.KernelIdeal.Final2

end
-- ==== Proof.KFinal3.lean ====
/-
  Region 3: the whole array of class scores, as one function of the arrays the region finds.

  Point `t` of the fifty reads rows `2000 t … 2000 t + 1999` of the embedding, the classifier's matrix and bias row whole,
  and writes the same rows of the scores.  A row of the log-softmax of the logits depends on the same embedding row
  only, so what point `t` writes back is block `t` of `Sage.classify` of the whole arrays, and the fifty blocks tile the
  hundred thousand rows.
-/
import proofs.«113549_j29454885716510_1_alg».proof.Proof.Gen.KernelIdeal.Frame
import proofs.«113549_j29454885716510_1_alg».proof.Proof.KPay

set_option maxRecDepth 16384

noncomputable section

namespace Cert.KernelIdeal.Final3

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The classifier of the arrays the region finds: the score array's closed form. -/
def G (c : Dev nD) : S100000x16.Idx → EReal :=
  classify (V c main_v56) (V c main_arg11) (fun r => V c main_v57 (ix2 (0 : Fin 1) r))

/-- The body's one store covers its whole block, so what it leaves is its payload of the loaded blocks. -/
theorem out_eq (x0 : Vec Ideal S2000x128 .f32) (x1 : Vec Ideal S128x16 .f32) (x2 : Vec Ideal S1x16 .f32) :
    out3_3 (F := Ideal) x0 x1 x2 = k3_pay1 x0 x1 x2 := by
  unfold out3_3
  rw [View.canon_unit_zero hz]
  simp only [View.ld_unit_zero (S := S2000x128) hz, View.ld_unit_zero (S := S128x16) hz, View.ld_unit_zero (S := S1x16) hz]

/-- The printed index maps over the grid: the embedding moves with the output, block row `t`; the matrix and the bias
    stay at block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `G`. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 (F := Ideal) V c).after 3 t) = _
  rw [after3_3, out_eq]
  obtain ⟨e00, e01, e10, e11, e20, e21, e30, e31⟩ := idx_facts t
  funext j
  show k3_pay1 (iblk3 V c 0 t) (iblk3 V c 1 t) (iblk3 V c 2 t) j = G V c (((cfg3.win 3).blk t).view.emb j)
  obtain ⟨p, q, rfl⟩ : ∃ (p : Fin 2000) (q : Fin 16), j = ix2 p q := ⟨j 0, j 1, eq_ix2 j⟩
  refine (pay3_apply (iblk3 V c 0 t) (iblk3 V c 1 t) (iblk3 V c 2 t) p q).trans ?_
  unfold G classify
  refine lsm_logit_congr ?_ ?_ ?_ ?_
  · funext k
    show V c main_v56 (((cfg3.win 0).blk t).view.emb (ix2 p k)) = V c main_v56 (ix2 ((((cfg3.win 3).blk t).view.emb (ix2 p q)) 0) k)
    refine congrArg (V c main_v56) ?_
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * k.val = k.val; omega
  · funext y
    show V c main_arg11 (((cfg3.win 1).blk t).view.emb y) = V c main_arg11 y
    refine congrArg (V c main_arg11) ?_
    funext a; apply Fin.ext
    match a with
    | ⟨0, _⟩ => show win3_1.index t (0 : Fin 2) * 128 + 1 * (y 0).val = (y 0).val; omega
    | ⟨1, _⟩ => show win3_1.index t (1 : Fin 2) * 16 + 1 * (y 1).val = (y 1).val; omega
  · funext r
    show V c main_v57 (((cfg3.win 2).blk t).view.emb (ix2 (0 : Fin 1) r)) = V c main_v57 (ix2 (0 : Fin 1) r)
    refine congrArg (V c main_v57) ?_
    funext a; apply Fin.ext
    match a with
    | ⟨0, _⟩ => show win3_2.index t (0 : Fin 2) * 1 + 1 * 0 = 0; omega
    | ⟨1, _⟩ => show win3_2.index t (1 : Fin 2) * 16 + 1 * r.val = r.val; omega
  · apply Fin.ext
    show q.val = win3_3.index t (1 : Fin 2) * 16 + 1 * q.val
    omega

/-- An index of the array is in point `t`'s block iff each coordinate is in the block's range on its axis. -/
theorem mem_blk (t : Fin cfg3.N) (i : S100000x16.Idx) :
    i ∈ ((cfg3.win 3).blk t).view.set ↔ ∀ a : Fin 2, win3_3.index t a * S2000x16.size a ≤ (i a).val ∧ (i a).val < win3_3.index t a * S2000x16.size a + S2000x16.size a := by
  show i ∈ ((View.whole main_v58).slice (win3_3.rect t)).set ↔ _
  rw [View.set_slice_whole, Rect.mem_set_unit]
  exact Iff.rfl

/-- Every row of the array lies in the block of the point numbered by the row's quotient by 2000. -/
theorem cover (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  let t : Fin cfg3.N := ⟨(i 0).val / 2000, by show (i 0).val / 2000 < 50; omega⟩
  obtain ⟨e00, e01, e10, e11, e20, e21, e30, e31⟩ := idx_facts t
  have ht : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 16 ≤ (i 1).val ∧ (i 1).val < win3_3.index t (1 : Fin 2) * 16 + 16; omega

/-- The array after the region: the classifier of the arrays the region finds. -/
theorem final (c : Dev nD) : (dat3 (F := Ideal) V c).arrAt 3 cfg3.N = G V c :=
  (dat3 (F := Ideal) V c).arrAt_eq_of_cover 3 (G V c) (fun t _ => flushed_eq V c t) (cover)

end Cert.KernelIdeal.Final3

end
-- ==== Proof.KHostB.lean ====
/-
  What the boundaries of @main hold from the third layer on, and what the run leaves in its two results.

  The third stretch builds the third layer's aggregate from the second layer's result and the edges' sources,
  destinations and inverse degrees, all still in place; the third region leaves the embedding; the last stretch only
  lays the classifier's bias as a row; the last region reads the embedding and leaves the class scores.  So the two
  result buffers end at the network's embedding and class scores of the thirteen arguments.
-/
import proofs.«113549_j29454885716510_1_alg».proof.Proof.KHostA
import proofs.«113549_j29454885716510_1_alg».proof.Proof.KFinal2
import proofs.«113549_j29454885716510_1_alg».proof.Proof.KFinal3

set_option maxRecDepth 16384
set_option maxHeartbeats 4000000

noncomputable section

namespace Cert.KernelIdeal.Walk

open Cert.KernelIdeal Cert.KernelIdeal.Gen Cert.KernelIdeal.Net Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the third stretch -/

theorem W5_arg8 (c : Dev nD) : W5 m ρ c (Proc.devRef .tc main_arg8) = (m ((c : Thread nD τ).loc main_arg8)) := by
  dsimp only [W5, hostOps2]
  after_results_simp
  exact W4_arg8 m ρ c
theorem W5_arg9 (c : Dev nD) : W5 m ρ c (Proc.devRef .tc main_arg9) = (m ((c : Thread nD τ).loc main_arg9)) := by
  dsimp only [W5, hostOps2]
  after_results_simp
  exact W4_arg9 m ρ c
theorem W5_arg11 (c : Dev nD) : W5 m ρ c (Proc.devRef .tc main_arg11) = (m ((c : Thread nD τ).loc main_arg11)) := by
  dsimp only [W5, hostOps2]
  after_results_simp
  exact W4_arg11 m ρ c
theorem W5_arg12 (c : Dev nD) : W5 m ρ c (Proc.devRef .tc main_arg12) = (m ((c : Thread nD τ).loc main_arg12)) := by
  dsimp only [W5, hostOps2]
  after_results_simp
  exact W4_arg12 m ρ c
theorem W5_v41 (c : Dev nD) : W5 m ρ c (Proc.devRef .tc main_v41) = (sageLayer true (sageLayer true (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  dsimp only [W5, hostOps2]
  after_results_simp
  exact W4_v41 m ρ c
/-- The third layer's aggregate: the mean over incoming edges of the second layer's result. -/
theorem W5_v54 (c : Dev nD) : W5 m ρ c (Proc.devRef .tc main_v54) = meanOf (sageLayer true (sageLayer true (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (srcOf (m ((c : Thread nD τ).loc main_arg1))) (dstOf (m ((c : Thread nD τ).loc main_arg1))) (dinvOf (dstOf (m ((c : Thread nD τ).loc main_arg1)))) := by
  dsimp only [W5, hostOps2]
  after_results_simp
  rw [W4_v3 m ρ c, W4_v41 m ρ c, W4_v1 m ρ c, W4_v11 m ρ c]
  rfl
/-- The third layer's bias as a one-row matrix. -/
theorem W5_v55 (c : Dev nD) : W5 m ρ c (Proc.devRef .tc main_v55) = shapeCast S1x128 (m ((c : Thread nD τ).loc main_arg10)) shapeCasts_S128_S1x128 := by
  dsimp only [W5, hostOps2]
  after_results_simp
  rw [W4_arg10 m ρ c]
  rfl

/-! ## After the third region -/

theorem W6_arg11 (c : Dev nD) : W6 m ρ c (Proc.devRef .tc main_arg11) = (m ((c : Thread nD τ).loc main_arg11)) :=
  (W6_of_ne m ρ c main_arg11 (by decide)).trans (W5_arg11 m ρ c)
theorem W6_arg12 (c : Dev nD) : W6 m ρ c (Proc.devRef .tc main_arg12) = (m ((c : Thread nD τ).loc main_arg12)) :=
  (W6_of_ne m ρ c main_arg12 (by decide)).trans (W5_arg12 m ρ c)
/-- The embedding. -/
theorem W6_v56 (c : Dev nD) : W6 m ρ c (Proc.devRef .tc main_v56) = (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W6_arr m ρ c 5).trans ((Final2.final (V5 m ρ) c).trans ?_)
  unfold Final2.G
  show _ = sageLayer false (sageLayer true (sageLayer true (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))
  unfold sageLayer
  exact layer_congr (W5_v54 m ρ c) (W5_v41 m ρ c) (W5_arg8 m ρ c) (W5_arg9 m ρ c)
    (funext fun r => (congrFun (W5_v55 m ρ c) (ix2 (0 : Fin 1) r)).trans (shapeCast_a_1a_apply _ _ (0 : Fin 1) r))

/-! ## After the last stretch -/

theorem W7_arg11 (c : Dev nD) : W7 m ρ c (Proc.devRef .tc main_arg11) = (m ((c : Thread nD τ).loc main_arg11)) := by
  dsimp only [W7, hostOps3]
  after_results_simp
  exact W6_arg11 m ρ c
theorem W7_v56 (c : Dev nD) : W7 m ρ c (Proc.devRef .tc main_v56) = (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  dsimp only [W7, hostOps3]
  after_results_simp
  exact W6_v56 m ρ c
/-- The classifier's bias as a one-row matrix. -/
theorem W7_v57 (c : Dev nD) : W7 m ρ c (Proc.devRef .tc main_v57) = shapeCast S1x16 (m ((c : Thread nD τ).loc main_arg12)) shapeCasts_S16_S1x16 := by
  dsimp only [W7, hostOps3]
  after_results_simp
  rw [W6_arg12 m ρ c]
  rfl

/-! ## The two results -/

/-- The first result buffer ends at the embedding: the last region reads it and leaves it as it found it. -/
theorem result_embedding (c : Dev nD) : V8 m ρ c main_v56 = (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W8_arr m ρ c 0).trans ((((dat3 (V7 m ρ) c).arrAt_in 0 rfl _).trans (A_eq3 (V7 m ρ) c 0)).trans (W7_v56 m ρ c))

/-- The second result buffer ends at the class scores of the embedding. -/
theorem result_scores (c : Dev nD) : V8 m ρ c main_v58 = scores (embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) := by
  refine (W8_arr m ρ c 3).trans ((Final3.final (V7 m ρ) c).trans ?_)
  unfold Final3.G scores
  exact classify_congr (W7_v56 m ρ c) (W7_arg11 m ρ c)
    (funext fun r => (congrFun (W7_v57 m ρ c) (ix2 (0 : Fin 1) r)).trans (shapeCast_a_1a_apply _ _ (0 : Fin 1) r))

end Cert.KernelIdeal.Walk

end
-- ==== Proof.RefValue.lean ====
/-
  The reference's host operations for one layer, read entry by entry.

  A layer on the host is two products over the whole node array, their sum, the bias laid along every row, and for the
  first two layers the maximum with zero: read at an entry this is `Sage.layer`.  The classifier's logits are one more
  such product plus its bias row.
-/
import proofs.«113549_j29454885716510_1_alg».proof.Proof.Gen.ReferenceIdeal
import proofs.«113549_j29454885716510_1_alg».proof.Proof.KAgg
import proofs.«113549_j29454885716510_1_alg».proof.Proof.LibRowOps
import Idealize.ShloMosaic.Lib.ValueIdx
import Idealize.ShloMosaic.Lib.Pipeline.Value
import Idealize.ShloMosaic.PureOps.Ideal.Laws

set_option maxRecDepth 16384

noncomputable section

namespace Cert.ReferenceIdeal.Net

open Cert.ReferenceIdeal Cert.ReferenceIdeal.Gen Cert.KernelIdeal.Net Cert.Sage
open Idealize.ShloMosaic Idealize.ShloMosaic.ValueIdx

/-! ## A layer on the host -/

/-- The host's product of the node array with a square weight matrix, at `(p, q)`: the sum over the shared axis. -/
theorem dg128 (A : FVec Ideal S100000x128 .f32) (B : FVec Ideal S128x128 .f32) (p : Fin 100000) (q : Fin 128) :
    Host.dotGeneral (F := Ideal) dot_S100000x128_S128x128_S100000x128_1_0_0_1_n_n none A B (ix2 p q)
      = ∑ k : Fin 128, A (ix2 p k) * B (ix2 k q) := by
  simp only [Host.dotGeneral]
  refine (Ideal.dotGeneral_apply dot_S100000x128_S128x128_S100000x128_1_0_0_1_n_n none _ A B (ix2 p q)).trans ?_
  refine Cert.LibRowOps.sum_contr dot_S100000x128_S128x128_S100000x128_1_0_0_1_n_n rfl rfl ?_ ?_ ?_ ?_ A B p q
  · intro j k
    unfold DotDims.lhsIdx
    rw [dif_neg (show ¬(0 : Fin S100000x128.rank) ∈ dot_S100000x128_S128x128_S100000x128_1_0_0_1_n_n.lhsBatch by decide),
      dif_pos (show (0 : Fin S100000x128.rank) ∈ dot_S100000x128_S128x128_S100000x128_1_0_0_1_n_n.lhsNonContracting by decide)]
    rfl
  · intro j k
    exact dot_S100000x128_S128x128_S100000x128_1_0_0_1_n_n.lhsIdx_val_of_single rfl j k
  · intro j k
    exact dot_S100000x128_S128x128_S100000x128_1_0_0_1_n_n.rhsIdx_val_of_single rfl j k
  · intro j k
    unfold DotDims.rhsIdx
    rw [dif_neg (show ¬(1 : Fin S128x128.rank) ∈ dot_S100000x128_S128x128_S100000x128_1_0_0_1_n_n.rhsBatch by decide),
      dif_pos (show (1 : Fin S128x128.rank) ∈ dot_S100000x128_S128x128_S100000x128_1_0_0_1_n_n.rhsNonContracting by decide)]
    rfl

/-- The host's product of the node array with the classifier's matrix, at `(p, q)`. -/
theorem dg16 (A : FVec Ideal S100000x128 .f32) (B : FVec Ideal S128x16 .f32) (p : Fin 100000) (q : Fin 16) :
    Host.dotGeneral (F := Ideal) dot_S100000x128_S128x16_S100000x16_1_0_0_1_n_n none A B (ix2 p q)
      = ∑ k : Fin 128, A (ix2 p k) * B (ix2 k q) := by
  simp only [Host.dotGeneral]
  refine (Ideal.dotGeneral_apply dot_S100000x128_S128x16_S100000x16_1_0_0_1_n_n none _ A B (ix2 p q)).trans ?_
  refine Cert.LibRowOps.sum_contr dot_S100000x128_S128x16_S100000x16_1_0_0_1_n_n rfl rfl ?_ ?_ ?_ ?_ A B p q
  · intro j k
    unfold DotDims.lhsIdx
    rw [dif_neg (show ¬(0 : Fin S100000x128.rank) ∈ dot_S100000x128_S128x16_S100000x16_1_0_0_1_n_n.lhsBatch by decide),
      dif_pos (show (0 : Fin S100000x128.rank) ∈ dot_S100000x128_S128x16_S100000x16_1_0_0_1_n_n.lhsNonContracting by decide)]
    rfl
  · intro j k
    exact dot_S100000x128_S128x16_S100000x16_1_0_0_1_n_n.lhsIdx_val_of_single rfl j k
  · intro j k
    exact dot_S100000x128_S128x16_S100000x16_1_0_0_1_n_n.rhsIdx_val_of_single rfl j k
  · intro j k
    unfold DotDims.rhsIdx
    rw [dif_neg (show ¬(1 : Fin S128x16.rank) ∈ dot_S100000x128_S128x16_S100000x16_1_0_0_1_n_n.rhsBatch by decide),
      dif_pos (show (1 : Fin S128x16.rank) ∈ dot_S100000x128_S128x16_S100000x16_1_0_0_1_n_n.rhsNonContracting by decide)]
    rfl

/-- A layer without the cut, as the host spells it. -/
def hostLin (mean h : FVec Ideal S100000x128 .f32) (Wn Ws : FVec Ideal S128x128 .f32) (b : FVec Ideal S128 .f32) : FVec Ideal S100000x128 .f32 :=
  addf (addf (Host.dotGeneral (F := Ideal) dot_S100000x128_S128x128_S100000x128_1_0_0_1_n_n none mean Wn)
      (Host.dotGeneral (F := Ideal) dot_S100000x128_S128x128_S100000x128_1_0_0_1_n_n none h Ws))
    (broadcastInDim S100000x128 ![0, 1] bcast_S1x128_S100000x128_0_1 (broadcastInDim S1x128 ![1] bcast_S128_S1x128_1 b))

theorem hostLin_apply (mean h : FVec Ideal S100000x128 .f32) (Wn Ws : FVec Ideal S128x128 .f32) (b : FVec Ideal S128 .f32) (p : Fin 100000) (q : Fin 128) :
    hostLin mean h Wn Ws b (ix2 p q)
      = layerLin (fun k => mean (ix2 p k)) (fun k => h (ix2 p k)) Wn Ws (fun r => b (ix1 r)) q := by
  unfold hostLin layerLin
  exact congrArg₂ (· + ·) (congrArg₂ (· + ·) (dg128 mean Wn p q) (dg128 h Ws p q))
    ((Cert.LibRowOps.broadcastInDim_1b_ab_apply bcast_S1x128_S100000x128_0_1 _ p q).trans
      (Cert.LibRowOps.broadcastInDim_b_1b_apply bcast_S128_S1x128_1 b (0 : Fin 1) q))

theorem hostLin_eq (mean h : FVec Ideal S100000x128 .f32) (Wn Ws : FVec Ideal S128x128 .f32) (b : FVec Ideal S128 .f32) :
    hostLin mean h Wn Ws b = layer false mean h Wn Ws (fun r => b (ix1 r)) := by
  funext i
  obtain ⟨p, q, rfl⟩ : ∃ (p : Fin 100000) (q : Fin 128), i = ix2 p q := ⟨i 0, i 1, eq_ix2 i⟩
  rw [layer_ix2, layerEntry_false]
  exact hostLin_apply mean h Wn Ws b p q

theorem hostRelu_eq (mean h : FVec Ideal S100000x128 .f32) (Wn Ws : FVec Ideal S128x128 .f32) (b : FVec Ideal S128 .f32) :
    maximumf (hostLin mean h Wn Ws b)
        (broadcastInDim S100000x128 ![] bcast_S_S100000x128 (constant (F := Ideal) S_ .f32 0x00000000#32))
      = layer true mean h Wn Ws (fun r => b (ix1 r)) := by
  funext i
  obtain ⟨p, q, rfl⟩ : ∃ (p : Fin 100000) (q : Fin 128), i = ix2 p q := ⟨i 0, i 1, eq_ix2 i⟩
  rw [layer_ix2, layerEntry_true]
  exact congrArg₂ max (hostLin_apply mean h Wn Ws b p q)
    (Cert.LibRowOps.broadcastInDim_scalar_apply bcast_S_S100000x128 _ (ix2 p q))

end Cert.ReferenceIdeal.Net

end
-- ==== Proof.RefLsm.lean ====
/-
  The reference's log-softmax, read entry by entry.

  The host takes the row maxima of the logits by a reduce from minus infinity (and the maximum with minus infinity once
  more, which changes nothing), the shifted logits, the row sums of their exponentials from zero, and subtracts their
  logarithms: read at an entry this is `Sage.classify`.
-/
import proofs.«113549_j29454885716510_1_alg».proof.Proof.RefValue
import proofs.«113549_j29454885716510_1_alg».proof.Proof.KAgg
import proofs.«113549_j29454885716510_1_alg».proof.Proof.LibRowOps
import Idealize.ShloMosaic.Lib.ValueIdx
import Idealize.ShloMosaic.Lib.Pipeline.Value
import Idealize.ShloMosaic.PureOps.Ideal.Laws

set_option maxRecDepth 16384

noncomputable section

namespace Cert.ReferenceIdeal.Net

open Cert.ReferenceIdeal Cert.ReferenceIdeal.Gen Cert.KernelIdeal.Net Cert.Sage
open Idealize.ShloMosaic Idealize.ShloMosaic.ValueIdx

/-! ## The log-softmax on the host -/

/-- The logits as the host spells them. -/
def hostLogits (emb : FVec Ideal S100000x128 .f32) (W : FVec Ideal S128x16 .f32) (b : FVec Ideal S16 .f32) : FVec Ideal S100000x16 .f32 :=
  addf (Host.dotGeneral (F := Ideal) dot_S100000x128_S128x16_S100000x16_1_0_0_1_n_n none emb W)
    (broadcastInDim S100000x16 ![0, 1] bcast_S1x16_S100000x16_0_1 (broadcastInDim S1x16 ![1] bcast_S16_S1x16_1 b))

theorem hostLogits_apply (emb : FVec Ideal S100000x128 .f32) (W : FVec Ideal S128x16 .f32) (b : FVec Ideal S16 .f32) (p : Fin 100000) (q : Fin 16) :
    hostLogits emb W b (ix2 p q) = logit (fun k => emb (ix2 p k)) W (fun r => b (ix1 r)) q := by
  unfold hostLogits logit
  exact congrArg₂ (· + ·) (dg16 emb W p q)
    ((Cert.LibRowOps.broadcastInDim_1b_ab_apply bcast_S1x16_S100000x16_0_1 _ p q).trans
      (Cert.LibRowOps.broadcastInDim_b_1b_apply bcast_S16_S1x16_1 b (0 : Fin 1) q))

/-- The logits less their row maxima, as the host spells it. -/
def hostShift (Y : FVec Ideal S100000x16 .f32) : FVec Ideal S100000x16 .f32 :=
  subf Y (broadcastInDim S100000x16 ![0, 1] bcast_S100000x1_S100000x16_0_1 (broadcastInDim S100000x1 ![0] bcast_S100000_S100000x1_0
    (maximumf (broadcastInDim S100000 ![] bcast_S_S100000 (constant (F := Ideal) S_ .f32 0xFF800000#32))
      (Host.reduce FloatOps.maximumf Y (constant (F := Ideal) S_ .f32 0xFF800000#32) reducesTo_S100000x16_S100000_d1 h_S_))))

theorem hR : S100000x16.Reduces [1] S100000 := by decide

/-- The host's row maximum of `Y` from minus infinity, at row `p`: the fold of `max` over the row. -/
theorem hostRowMax_apply (Y : FVec Ideal S100000x16 .f32) (p : Fin 100000) :
    Host.reduce FloatOps.maximumf Y (constant (F := Ideal) S_ .f32 0xFF800000#32) reducesTo_S100000x16_S100000_d1 h_S_ (ix1 p)
      = rowMax (fun r => Y (ix2 p r)) := by
  refine (Host.reduce_eq_fold_single FloatOps.maximumf Y (constant (F := Ideal) S_ .f32 0xFF800000#32)
    reducesTo_S100000x16_S100000_d1 hR h_S_ (ix1 p)).trans ?_
  show Finset.fold max ninfW (Y ∘ hR.lift (ix1 p)) Finset.univ = Finset.fold max ninfW (fun r => Y (ix2 p r)) Finset.univ
  refine congrArg (Finset.fold max ninfW · Finset.univ) ?_
  funext k
  exact congrArg Y (Cert.LibRowOps.lift_row hR p k)

theorem hostShift_apply (Y : FVec Ideal S100000x16 .f32) (p : Fin 100000) (r : Fin 16) :
    hostShift Y (ix2 p r) = Y (ix2 p r) - rowMax (fun r => Y (ix2 p r)) := by
  unfold hostShift
  refine (subf_apply _ _ _).trans ?_
  refine congrArg (Y (ix2 p r) - ·) ?_
  refine (Cert.LibRowOps.broadcastInDim_a1_ab_apply bcast_S100000x1_S100000x16_0_1 _ p r).trans ?_
  refine (Cert.LibRowOps.broadcastInDim_a_a1_apply bcast_S100000_S100000x1_0 _ p (0 : Fin 1)).trans ?_
  refine (maximumf_apply _ _ _).trans ?_
  rw [hostRowMax_apply Y p, Cert.LibRowOps.broadcastInDim_scalar_apply bcast_S_S100000 _ (ix1 p)]
  exact max_start_rowMax _

/-- The host's logarithm of an array, at an index: the logarithm of the entry. -/
theorem hostLog_apply {s : Shape} (x : FVec Ideal s .f32) (i : s.Idx) : Host.log x i = Ideal.log (x i) := rfl

/-- The host's exponential of an array, at an index: the exponential of the entry. -/
theorem hostExp_apply {s : Shape} (x : FVec Ideal s .f32) (i : s.Idx) : Host.exp x i = Ideal.exp (x i) := rfl

/-- The log-softmax of the rows of `Y`, as the host spells it. -/
def hostLsm (Y : FVec Ideal S100000x16 .f32) : FVec Ideal S100000x16 .f32 :=
  subf (hostShift Y) (broadcastInDim S100000x16 ![0, 1] bcast_S100000x1_S100000x16_0_1 (Host.log (broadcastInDim S100000x1 ![0] bcast_S100000_S100000x1_0
    (Host.reduceAdd (Host.exp (hostShift Y)) (constant (F := Ideal) S_ .f32 0x00000000#32) reducesTo_S100000x16_S100000_d1 h_S_))))

theorem hostLsm_apply (Y : FVec Ideal S100000x16 .f32) (p : Fin 100000) (q : Fin 16) :
    hostLsm Y (ix2 p q) = lsmEntry (fun r => Y (ix2 p r)) q := by
  unfold hostLsm lsmEntry
  refine (subf_apply _ _ _).trans ?_
  refine congrArg₂ (· - ·) (hostShift_apply Y p q) ?_
  refine (Cert.LibRowOps.broadcastInDim_a1_ab_apply bcast_S100000x1_S100000x16_0_1 _ p q).trans ?_
  refine (hostLog_apply _ _).trans ?_
  refine congrArg Ideal.log ?_
  refine (Cert.LibRowOps.broadcastInDim_a_a1_apply bcast_S100000_S100000x1_0 _ p (0 : Fin 1)).trans ?_
  simp only [Host.reduceAdd, Ideal.hostReduceAdd_def]
  refine (Cert.LibRowOps.hostReduceAdd_row_apply reducesTo_S100000x16_S100000_d1 hR _ _ p).trans ?_
  rw [show (constant (F := Ideal) S_ .f32 0x00000000#32) (Shape.Idx.first h_S_) = (0 : EReal) from Ideal.ofBits_zero_f32, zero_add]
  refine Finset.sum_congr rfl fun r _ => ?_
  exact (hostExp_apply _ _).trans (congrArg Ideal.exp (hostShift_apply Y p r))

theorem hostClassify_eq (emb : FVec Ideal S100000x128 .f32) (W : FVec Ideal S128x16 .f32) (b : FVec Ideal S16 .f32) :
    hostLsm (hostLogits emb W b) = classify emb W (fun r => b (ix1 r)) := by
  funext i
  obtain ⟨p, q, rfl⟩ : ∃ (p : Fin 100000) (q : Fin 16), i = ix2 p q := ⟨i 0, i 1, eq_ix2 i⟩
  rw [classify_ix2]
  refine (hostLsm_apply _ p q).trans ?_
  refine congrArg (lsmEntry · q) ?_
  funext r
  exact hostLogits_apply emb W b p r

end Cert.ReferenceIdeal.Net

end
-- ==== Proof.RefWalk.lean ====
/-
  The reference's run, read in stages.

  The reference's @main is a straight line of 107 host operations.  Every weakly fair execution terminates with each
  buffer at the fold of the operations' results over the launch contents.  The line is cut where a layer's dense part, its cut at zero, the logits or the log-softmax ends:
  a stage leaves every buffer it does not write as it found it and each buffer it writes at its operation's value of
  the operands.  After the first stage the sources, destinations and inverse degrees of the edges are in place and the
  first layer's result; the second and third stages add one layer each; the last stage takes the log-softmax of the
  embedding's logits.  So the two results end at the network's embedding and class scores of the thirteen arguments,
  and the arguments, which no operation writes, end as launched.
-/
import proofs.«113549_j29454885716510_1_alg».proof.Proof.RefOps
import proofs.«113549_j29454885716510_1_alg».proof.Proof.RefValue
import proofs.«113549_j29454885716510_1_alg».proof.Proof.RefLsm
import proofs.«113549_j29454885716510_1_alg».proof.Proof.KAgg
import Idealize.ShloMosaic.Lib.StableHlo.Run

set_option maxRecDepth 16384
set_option maxHeartbeats 4000000

noncomputable section

namespace Cert.ReferenceIdeal.Walk

open Cert.ReferenceIdeal Cert.ReferenceIdeal.Gen Cert.ReferenceIdeal.ValueP Cert.ReferenceIdeal.Net Cert.KernelIdeal.Net Cert.Sage
open Idealize.ShloMosaic Idealize.ShloMosaic.TcCoe Idealize.ShloMosaic.ValueIdx Idealize.SL.Sem Idealize.ShloMosaic.StableHlo

/-! ## The line in stages -/

/-- Running two lines one after the other folds the second over what the first leaves. -/
theorem after_append : ∀ (l₁ l₂ : List (HloOp τ sig (Elt Ideal))) (V : Valuation τ sig (Elt Ideal)),
    after (l₁ ++ l₂) V = after l₂ (after l₁ V)
  | [], _, _ => rfl
  | op :: l₁, l₂, V => after_append l₁ l₂ (op.result V)

section Lists
variable {F : FTy → Type} [FloatOps F]

/-- The graph set-up and the first layer before its cut. -/
abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v19 (broadcastInDim S100000x128 ![] bcast_S_S100000x128 : (⟨S_, .f32⟩ : BufTy).Contents (Elt F) → (⟨S100000x128, .f32⟩ : BufTy).Contents (Elt F)),
    unary main_v3 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v21 main_v23 main_v24 (mulf : (⟨S100000x128, .f32⟩ : BufTy).Contents (Elt F) → (⟨S100000x128, .f32⟩ : BufTy).Contents (Elt F) → (⟨S100000x128, .f32⟩ : BufTy).Contents (Elt F)),
    binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_arg0 main_arg3 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- The first layer's cut at zero. -/
abbrev ops2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- The second layer before its cut. -/
abbrev ops3 : List (HloOp τ sig (Elt F)) :=
  [ nullary main_c_5 (constantI S_ 32 0#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x128 ![0, 1] bcast_S100000x1_S100000x128_0_1 : (⟨S100000x1, .f32⟩ : BufTy).Contents (Elt F) → (⟨S100000x128, .f32⟩ : BufTy).Contents (Elt F)),
    binary main_v41 main_v43 main_v44 (mulf : (⟨S100000x128, .f32⟩ : BufTy).Contents (Elt F) → (⟨S100000x128, .f32⟩ : BufTy).Contents (Elt F) → (⟨S100000x128, .f32⟩ : BufTy).Contents (Elt F)),
    binary main_v44 main_arg5 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v31 main_arg6 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v45 main_v46 main_v47 (addf : (⟨S100000x128, .f32⟩ : BufTy).Contents (Elt F) → (⟨S100000x128, .f32⟩ : BufTy).Contents (Elt F) → (⟨S100000x128, .f32⟩ : BufTy).Contents (Elt F)),
    unary main_arg7 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)) ]

/-- The second layer's cut at zero. -/
abbrev ops4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v50) (TRef.of (T := ⟨S100000x128, .f32⟩) main_call1_v0) (TRef.of (T := ⟨S100000x128, .f32⟩) main_v51) maximumf ]

/-- The third layer. -/
abbrev ops5 : List (HloOp τ sig (Elt F)) :=
  [ nullary main_c_8 (constantI S_ 32 0#32),
    unary main_c_8 main_v52 (broadcastInDim S1600000 ![] bcast_S_S1600000 : (⟨S_, .i32⟩ : BufTy).Contents (Elt F) → (⟨S1600000, .i32⟩ : BufTy).Contents (Elt F)),
    binary main_v1 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v54 (broadcastInDim S1600000 ![] bcast_S_S1600000 : (⟨S_, .i32⟩ : BufTy).Contents (Elt F) → (⟨S1600000, .i32⟩ : BufTy).Contents (Elt F)),
    binary main_v1 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v56 main_v57 (broadcastInDim S1600000x1 ![0] bcast_S1600000_S1600000x1_0 : (⟨S1600000, .i32⟩ : BufTy).Contents (Elt F) → (⟨S1600000x1, .i32⟩ : BufTy).Contents (Elt F)),
    binary main_v51 main_v57 main_v58 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v59 (broadcastInDim S100000x128 ![] bcast_S_S100000x128 : (⟨S_, .f32⟩ : BufTy).Contents (Elt F) → (⟨S100000x128, .f32⟩ : BufTy).Contents (Elt F)),
    unary main_v3 main_v60 (broadcastInDim S1600000x1 ![0] bcast_S1600000_S1600000x1_0 : (⟨S1600000, .i32⟩ : BufTy).Contents (Elt F) → (⟨S1600000x1, .i32⟩ : BufTy).Contents (Elt F)),
    ternary main_v59 main_v60 main_v58 main_v61 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v62 (broadcastInDim S100000x1 ![0] bcast_S100000_S100000x1_0 : (⟨S100000, .f32⟩ : BufTy).Contents (Elt F) → (⟨S100000x1, .f32⟩ : BufTy).Contents (Elt F)),
    unary main_v62 main_v63 (broadcastInDim S100000x128 ![0, 1] bcast_S100000x1_S100000x128_0_1 : (⟨S100000x1, .f32⟩ : BufTy).Contents (Elt F) → (⟨S100000x128, .f32⟩ : BufTy).Contents (Elt F)),
    binary main_v61 main_v63 main_v64 (mulf : (⟨S100000x128, .f32⟩ : BufTy).Contents (Elt F) → (⟨S100000x128, .f32⟩ : BufTy).Contents (Elt F) → (⟨S100000x128, .f32⟩ : BufTy).Contents (Elt F)),
    binary main_v64 main_arg8 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v51 main_arg9 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v65 main_v66 main_v67 (addf : (⟨S100000x128, .f32⟩ : BufTy).Contents (Elt F) → (⟨S100000x128, .f32⟩ : BufTy).Contents (Elt F) → (⟨S100000x128, .f32⟩ : BufTy).Contents (Elt F)),
    unary main_arg10 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)) ]

/-- The classifier's logits. -/
abbrev ops6 : List (HloOp τ sig (Elt F)) :=
  [ binary main_v70 main_arg11 main_v71 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg12 main_v72 (broadcastInDim S1x16 ![1] bcast_S16_S1x16_1 : (⟨S16, .f32⟩ : BufTy).Contents (Elt F) → (⟨S1x16, .f32⟩ : BufTy).Contents (Elt F)),
    unary main_v72 main_v73 (broadcastInDim S100000x16 ![0, 1] bcast_S1x16_S100000x16_0_1 : (⟨S1x16, .f32⟩ : BufTy).Contents (Elt F) → (⟨S100000x16, .f32⟩ : BufTy).Contents (Elt F)),
    binary main_v71 main_v73 main_v74 (addf : (⟨S100000x16, .f32⟩ : BufTy).Contents (Elt F) → (⟨S100000x16, .f32⟩ : BufTy).Contents (Elt F) → (⟨S100000x16, .f32⟩ : BufTy).Contents (Elt F)) ]

/-- The log-softmax. -/
abbrev ops7 : List (HloOp τ sig (Elt F)) :=
  [ TRef.nullary (TRef.of (T := ⟨S_, .f32⟩) main_call2_cst) (constant S_ .f32 0xFF800000#32),
    TRef.binary (TRef.of (T := ⟨S100000x16, .f32⟩) main_v74) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v74) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v75) subf ]

theorem ops_split : (ops : List (HloOp τ sig (Elt F))) = ops1 ++ ops2 ++ ops3 ++ ops4 ++ ops5 ++ ops6 ++ ops7 := rfl

end Lists

/-! ## The two inlined calls, from any contents -/

/-- The cut at zero of the first layer: the maximum of what the layer left with zero, whatever the other buffers hold. -/
theorem relu_first (W : Valuation τ sig (Elt Ideal)) :
    after (ops2 (F := Ideal)) W (Proc.devRef .tc main_v31) = maximumf (W (Proc.devRef .tc main_v30)) (broadcastInDim S100000x128 ![] bcast_S_S100000x128 (constant (F := Ideal) S_ .f32 0x00000000#32)) := by
  dsimp only [ops2]
  after_results_simp
  rfl

/-- The cut at zero of the second layer. -/
theorem relu_second (W : Valuation τ sig (Elt Ideal)) :
    after (ops4 (F := Ideal)) W (Proc.devRef .tc main_v51) = maximumf (W (Proc.devRef .tc main_v50)) (broadcastInDim S100000x128 ![] bcast_S_S100000x128 (constant (F := Ideal) S_ .f32 0x00000000#32)) := by
  dsimp only [ops4]
  after_results_simp
  rfl

/-- Contents carried to a buffer's own type and back are unchanged. -/
theorem ofBuf_toBuf {T : BufTy} (t : TRef sig T) (v : T.Contents (Elt Ideal)) : t.ofBuf (t.toBuf v) = v := by
  obtain ⟨r, h, hd, hu⟩ := t
  subst h
  rfl

/-- The logits' buffer holds logits: reading it at the logits' type changes nothing. -/
theorem ofBuf_v74 (p : main_v74.ty = ⟨S100000x16, .f32⟩) (q : main_v74.space ≠ .host) (r : main_v74.isScoped = false)
    (V : (Proc.devRef .tc main_v74 : DevRef τ sig).ty.Contents (Elt Ideal)) :
    TRef.ofBuf (Val := Elt Ideal) (TRef.of main_v74 p q r) V = V := rfl

/-- The scores' buffer holds scores: writing scores to it changes nothing. -/
theorem toBuf_v75 (p : main_v75.ty = ⟨S100000x16, .f32⟩) (q : main_v75.space ≠ .host) (r : main_v75.isScoped = false)
    (Z : (⟨S100000x16, .f32⟩ : BufTy).Contents (Elt Ideal)) :
    TRef.toBuf (Val := Elt Ideal) (TRef.of main_v75 p q r) Z = Z := rfl

/-- The log-softmax of whatever logits the line left. -/
theorem lsm_last (W : Valuation τ sig (Elt Ideal)) :
    after (ops7 (F := Ideal)) W (Proc.devRef .tc main_v75) = hostLsm (W (Proc.devRef .tc main_v74)) := by
  dsimp only [ops7]
  after_results_simp
  simp only [ofBuf_toBuf]
  rw [toBuf_v75, ofBuf_v74]
  rfl

variable (m : (ℓ : Loc nD τ sig) → Buf (Elt Ideal) ℓ)

/-- The buffers after each stage. -/
def U1 (c : Dev nD) : Valuation τ sig (Elt Ideal) := after (ops1 (F := Ideal)) (launchContents m c)
def U2 (c : Dev nD) : Valuation τ sig (Elt Ideal) := after (ops2 (F := Ideal)) (U1 m c)
def U3 (c : Dev nD) : Valuation τ sig (Elt Ideal) := after (ops3 (F := Ideal)) (U2 m c)
def U4 (c : Dev nD) : Valuation τ sig (Elt Ideal) := after (ops4 (F := Ideal)) (U3 m c)
def U5 (c : Dev nD) : Valuation τ sig (Elt Ideal) := after (ops5 (F := Ideal)) (U4 m c)
def U6 (c : Dev nD) : Valuation τ sig (Elt Ideal) := after (ops6 (F := Ideal)) (U5 m c)
def U7 (c : Dev nD) : Valuation τ sig (Elt Ideal) := after (ops7 (F := Ideal)) (U6 m c)

theorem after_ops (c : Dev nD) : after (ops (F := Ideal)) (launchContents m c) = U7 m c := by
  unfold U7 U6 U5 U4 U3 U2 U1
  rw [ops_split, after_append, after_append, after_append, after_append, after_append, after_append]

/-! ## Stage 1: the graph set-up and the first layer before its cut -/

theorem U1_arg0 (c : Dev nD) : U1 m c (Proc.devRef .tc main_arg0) = (m ((c.tc : Thread nD τ).loc main_arg0)) := by
  dsimp only [U1, ops1]
  after_results_simp <;> rfl
theorem U1_arg1 (c : Dev nD) : U1 m c (Proc.devRef .tc main_arg1) = (m ((c.tc : Thread nD τ).loc main_arg1)) := by
  dsimp only [U1, ops1]
  after_results_simp <;> rfl
theorem U1_arg2 (c : Dev nD) : U1 m c (Proc.devRef .tc main_arg2) = (m ((c.tc : Thread nD τ).loc main_arg2)) := by
  dsimp only [U1, ops1]
  after_results_simp <;> rfl
theorem U1_arg3 (c : Dev nD) : U1 m c (Proc.devRef .tc main_arg3) = (m ((c.tc : Thread nD τ).loc main_arg3)) := by
  dsimp only [U1, ops1]
  after_results_simp <;> rfl
theorem U1_arg4 (c : Dev nD) : U1 m c (Proc.devRef .tc main_arg4) = (m ((c.tc : Thread nD τ).loc main_arg4)) := by
  dsimp only [U1, ops1]
  after_results_simp <;> rfl
theorem U1_arg5 (c : Dev nD) : U1 m c (Proc.devRef .tc main_arg5) = (m ((c.tc : Thread nD τ).loc main_arg5)) := by
  dsimp only [U1, ops1]
  after_results_simp <;> rfl
theorem U1_arg6 (c : Dev nD) : U1 m c (Proc.devRef .tc main_arg6) = (m ((c.tc : Thread nD τ).loc main_arg6)) := by
  dsimp only [U1, ops1]
  after_results_simp <;> rfl
theorem U1_arg7 (c : Dev nD) : U1 m c (Proc.devRef .tc main_arg7) = (m ((c.tc : Thread nD τ).loc main_arg7)) := by
  dsimp only [U1, ops1]
  after_results_simp <;> rfl
theorem U1_arg8 (c : Dev nD) : U1 m c (Proc.devRef .tc main_arg8) = (m ((c.tc : Thread nD τ).loc main_arg8)) := by
  dsimp only [U1, ops1]
  after_results_simp <;> rfl
theorem U1_arg9 (c : Dev nD) : U1 m c (Proc.devRef .tc main_arg9) = (m ((c.tc : Thread nD τ).loc main_arg9)) := by
  dsimp only [U1, ops1]
  after_results_simp <;> rfl
theorem U1_arg10 (c : Dev nD) : U1 m c (Proc.devRef .tc main_arg10) = (m ((c.tc : Thread nD τ).loc main_arg10)) := by
  dsimp only [U1, ops1]
  after_results_simp <;> rfl
theorem U1_arg11 (c : Dev nD) : U1 m c (Proc.devRef .tc main_arg11) = (m ((c.tc : Thread nD τ).loc main_arg11)) := by
  dsimp only [U1, ops1]
  after_results_simp <;> rfl
theorem U1_arg12 (c : Dev nD) : U1 m c (Proc.devRef .tc main_arg12) = (m ((c.tc : Thread nD τ).loc main_arg12)) := by
  dsimp only [U1, ops1]
  after_results_simp <;> rfl
theorem U1_v1 (c : Dev nD) : U1 m c (Proc.devRef .tc main_v1) = (srcOf (m ((c.tc : Thread nD τ).loc main_arg1))) := by
  dsimp only [U1, ops1]
  after_results_simp <;> rfl
theorem U1_v3 (c : Dev nD) : U1 m c (Proc.devRef .tc main_v3) = (dstOf (m ((c.tc : Thread nD τ).loc main_arg1))) := by
  dsimp only [U1, ops1]
  after_results_simp <;> rfl
theorem U1_v11 (c : Dev nD) : U1 m c (Proc.devRef .tc main_v11) = (dinvOf (dstOf (m ((c.tc : Thread nD τ).loc main_arg1)))) := by
  dsimp only [U1, ops1]
  after_results_simp <;> rfl
theorem U1_v30 (c : Dev nD) : U1 m c (Proc.devRef .tc main_v30) = (hostLin (meanOf (m ((c.tc : Thread nD τ).loc main_arg0)) (srcOf (m ((c.tc : Thread nD τ).loc main_arg1))) (dstOf (m ((c.tc : Thread nD τ).loc main_arg1))) (dinvOf (dstOf (m ((c.tc : Thread nD τ).loc main_arg1))))) (m ((c.tc : Thread nD τ).loc main_arg0)) (m ((c.tc : Thread nD τ).loc main_arg2)) (m ((c.tc : Thread nD τ).loc main_arg3)) (m ((c.tc : Thread nD τ).loc main_arg4))) := by
  dsimp only [U1, ops1]
  after_results_simp <;> rfl

/-! ## Stage 2: the first layer's result -/

theorem U2_arg0 (c : Dev nD) : U2 m c (Proc.devRef .tc main_arg0) = (m ((c.tc : Thread nD τ).loc main_arg0)) := by
  dsimp only [U2, ops2]
  after_results_simp
  exact U1_arg0 m c
theorem U2_arg1 (c : Dev nD) : U2 m c (Proc.devRef .tc main_arg1) = (m ((c.tc : Thread nD τ).loc main_arg1)) := by
  dsimp only [U2, ops2]
  after_results_simp
  exact U1_arg1 m c
theorem U2_arg2 (c : Dev nD) : U2 m c (Proc.devRef .tc main_arg2) = (m ((c.tc : Thread nD τ).loc main_arg2)) := by
  dsimp only [U2, ops2]
  after_results_simp
  exact U1_arg2 m c
theorem U2_arg3 (c : Dev nD) : U2 m c (Proc.devRef .tc main_arg3) = (m ((c.tc : Thread nD τ).loc main_arg3)) := by
  dsimp only [U2, ops2]
  after_results_simp
  exact U1_arg3 m c
theorem U2_arg4 (c : Dev nD) : U2 m c (Proc.devRef .tc main_arg4) = (m ((c.tc : Thread nD τ).loc main_arg4)) := by
  dsimp only [U2, ops2]
  after_results_simp
  exact U1_arg4 m c
theorem U2_arg5 (c : Dev nD) : U2 m c (Proc.devRef .tc main_arg5) = (m ((c.tc : Thread nD τ).loc main_arg5)) := by
  dsimp only [U2, ops2]
  after_results_simp
  exact U1_arg5 m c
theorem U2_arg6 (c : Dev nD) : U2 m c (Proc.devRef .tc main_arg6) = (m ((c.tc : Thread nD τ).loc main_arg6)) := by
  dsimp only [U2, ops2]
  after_results_simp
  exact U1_arg6 m c
theorem U2_arg7 (c : Dev nD) : U2 m c (Proc.devRef .tc main_arg7) = (m ((c.tc : Thread nD τ).loc main_arg7)) := by
  dsimp only [U2, ops2]
  after_results_simp
  exact U1_arg7 m c
theorem U2_arg8 (c : Dev nD) : U2 m c (Proc.devRef .tc main_arg8) = (m ((c.tc : Thread nD τ).loc main_arg8)) := by
  dsimp only [U2, ops2]
  after_results_simp
  exact U1_arg8 m c
theorem U2_arg9 (c : Dev nD) : U2 m c (Proc.devRef .tc main_arg9) = (m ((c.tc : Thread nD τ).loc main_arg9)) := by
  dsimp only [U2, ops2]
  after_results_simp
  exact U1_arg9 m c
theorem U2_arg10 (c : Dev nD) : U2 m c (Proc.devRef .tc main_arg10) = (m ((c.tc : Thread nD τ).loc main_arg10)) := by
  dsimp only [U2, ops2]
  after_results_simp
  exact U1_arg10 m c
theorem U2_arg11 (c : Dev nD) : U2 m c (Proc.devRef .tc main_arg11) = (m ((c.tc : Thread nD τ).loc main_arg11)) := by
  dsimp only [U2, ops2]
  after_results_simp
  exact U1_arg11 m c
theorem U2_arg12 (c : Dev nD) : U2 m c (Proc.devRef .tc main_arg12) = (m ((c.tc : Thread nD τ).loc main_arg12)) := by
  dsimp only [U2, ops2]
  after_results_simp
  exact U1_arg12 m c
theorem U2_v1 (c : Dev nD) : U2 m c (Proc.devRef .tc main_v1) = (srcOf (m ((c.tc : Thread nD τ).loc main_arg1))) := by
  dsimp only [U2, ops2]
  after_results_simp
  exact U1_v1 m c
theorem U2_v3 (c : Dev nD) : U2 m c (Proc.devRef .tc main_v3) = (dstOf (m ((c.tc : Thread nD τ).loc main_arg1))) := by
  dsimp only [U2, ops2]
  after_results_simp
  exact U1_v3 m c
theorem U2_v11 (c : Dev nD) : U2 m c (Proc.devRef .tc main_v11) = (dinvOf (dstOf (m ((c.tc : Thread nD τ).loc main_arg1)))) := by
  dsimp only [U2, ops2]
  after_results_simp
  exact U1_v11 m c
theorem U2_v31 (c : Dev nD) : U2 m c (Proc.devRef .tc main_v31) = (sageLayer true (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (relu_first (U1 m c)).trans ?_
  rw [U1_v30 m c]
  exact hostRelu_eq _ _ _ _ _

/-! ## Stage 3: the second layer before its cut -/

theorem U3_arg0 (c : Dev nD) : U3 m c (Proc.devRef .tc main_arg0) = (m ((c.tc : Thread nD τ).loc main_arg0)) := by
  dsimp only [U3, ops3]
  after_results_simp
  exact U2_arg0 m c
theorem U3_arg1 (c : Dev nD) : U3 m c (Proc.devRef .tc main_arg1) = (m ((c.tc : Thread nD τ).loc main_arg1)) := by
  dsimp only [U3, ops3]
  after_results_simp
  exact U2_arg1 m c
theorem U3_arg2 (c : Dev nD) : U3 m c (Proc.devRef .tc main_arg2) = (m ((c.tc : Thread nD τ).loc main_arg2)) := by
  dsimp only [U3, ops3]
  after_results_simp
  exact U2_arg2 m c
theorem U3_arg3 (c : Dev nD) : U3 m c (Proc.devRef .tc main_arg3) = (m ((c.tc : Thread nD τ).loc main_arg3)) := by
  dsimp only [U3, ops3]
  after_results_simp
  exact U2_arg3 m c
theorem U3_arg4 (c : Dev nD) : U3 m c (Proc.devRef .tc main_arg4) = (m ((c.tc : Thread nD τ).loc main_arg4)) := by
  dsimp only [U3, ops3]
  after_results_simp
  exact U2_arg4 m c
theorem U3_arg5 (c : Dev nD) : U3 m c (Proc.devRef .tc main_arg5) = (m ((c.tc : Thread nD τ).loc main_arg5)) := by
  dsimp only [U3, ops3]
  after_results_simp
  exact U2_arg5 m c
theorem U3_arg6 (c : Dev nD) : U3 m c (Proc.devRef .tc main_arg6) = (m ((c.tc : Thread nD τ).loc main_arg6)) := by
  dsimp only [U3, ops3]
  after_results_simp
  exact U2_arg6 m c
theorem U3_arg7 (c : Dev nD) : U3 m c (Proc.devRef .tc main_arg7) = (m ((c.tc : Thread nD τ).loc main_arg7)) := by
  dsimp only [U3, ops3]
  after_results_simp
  exact U2_arg7 m c
theorem U3_arg8 (c : Dev nD) : U3 m c (Proc.devRef .tc main_arg8) = (m ((c.tc : Thread nD τ).loc main_arg8)) := by
  dsimp only [U3, ops3]
  after_results_simp
  exact U2_arg8 m c
theorem U3_arg9 (c : Dev nD) : U3 m c (Proc.devRef .tc main_arg9) = (m ((c.tc : Thread nD τ).loc main_arg9)) := by
  dsimp only [U3, ops3]
  after_results_simp
  exact U2_arg9 m c
theorem U3_arg10 (c : Dev nD) : U3 m c (Proc.devRef .tc main_arg10) = (m ((c.tc : Thread nD τ).loc main_arg10)) := by
  dsimp only [U3, ops3]
  after_results_simp
  exact U2_arg10 m c
theorem U3_arg11 (c : Dev nD) : U3 m c (Proc.devRef .tc main_arg11) = (m ((c.tc : Thread nD τ).loc main_arg11)) := by
  dsimp only [U3, ops3]
  after_results_simp
  exact U2_arg11 m c
theorem U3_arg12 (c : Dev nD) : U3 m c (Proc.devRef .tc main_arg12) = (m ((c.tc : Thread nD τ).loc main_arg12)) := by
  dsimp only [U3, ops3]
  after_results_simp
  exact U2_arg12 m c
theorem U3_v1 (c : Dev nD) : U3 m c (Proc.devRef .tc main_v1) = (srcOf (m ((c.tc : Thread nD τ).loc main_arg1))) := by
  dsimp only [U3, ops3]
  after_results_simp
  exact U2_v1 m c
theorem U3_v3 (c : Dev nD) : U3 m c (Proc.devRef .tc main_v3) = (dstOf (m ((c.tc : Thread nD τ).loc main_arg1))) := by
  dsimp only [U3, ops3]
  after_results_simp
  exact U2_v3 m c
theorem U3_v11 (c : Dev nD) : U3 m c (Proc.devRef .tc main_v11) = (dinvOf (dstOf (m ((c.tc : Thread nD τ).loc main_arg1)))) := by
  dsimp only [U3, ops3]
  after_results_simp
  exact U2_v11 m c
theorem U3_v50 (c : Dev nD) : U3 m c (Proc.devRef .tc main_v50)
    = hostLin (meanOf (sageLayer true (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (srcOf (m ((c.tc : Thread nD τ).loc main_arg1))) (dstOf (m ((c.tc : Thread nD τ).loc main_arg1))) (dinvOf (dstOf (m ((c.tc : Thread nD τ).loc main_arg1))))) (sageLayer true (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)) := by
  dsimp only [U3, ops3]
  after_results_simp
  rw [U2_v3 m c, U2_v31 m c, U2_v1 m c, U2_v11 m c, U2_arg5 m c, U2_arg6 m c, U2_arg7 m c]
  rfl

/-! ## Stage 4: the second layer's result -/

theorem U4_arg0 (c : Dev nD) : U4 m c (Proc.devRef .tc main_arg0) = (m ((c.tc : Thread nD τ).loc main_arg0)) := by
  dsimp only [U4, ops4]
  after_results_simp
  exact U3_arg0 m c
theorem U4_arg1 (c : Dev nD) : U4 m c (Proc.devRef .tc main_arg1) = (m ((c.tc : Thread nD τ).loc main_arg1)) := by
  dsimp only [U4, ops4]
  after_results_simp
  exact U3_arg1 m c
theorem U4_arg2 (c : Dev nD) : U4 m c (Proc.devRef .tc main_arg2) = (m ((c.tc : Thread nD τ).loc main_arg2)) := by
  dsimp only [U4, ops4]
  after_results_simp
  exact U3_arg2 m c
theorem U4_arg3 (c : Dev nD) : U4 m c (Proc.devRef .tc main_arg3) = (m ((c.tc : Thread nD τ).loc main_arg3)) := by
  dsimp only [U4, ops4]
  after_results_simp
  exact U3_arg3 m c
theorem U4_arg4 (c : Dev nD) : U4 m c (Proc.devRef .tc main_arg4) = (m ((c.tc : Thread nD τ).loc main_arg4)) := by
  dsimp only [U4, ops4]
  after_results_simp
  exact U3_arg4 m c
theorem U4_arg5 (c : Dev nD) : U4 m c (Proc.devRef .tc main_arg5) = (m ((c.tc : Thread nD τ).loc main_arg5)) := by
  dsimp only [U4, ops4]
  after_results_simp
  exact U3_arg5 m c
theorem U4_arg6 (c : Dev nD) : U4 m c (Proc.devRef .tc main_arg6) = (m ((c.tc : Thread nD τ).loc main_arg6)) := by
  dsimp only [U4, ops4]
  after_results_simp
  exact U3_arg6 m c
theorem U4_arg7 (c : Dev nD) : U4 m c (Proc.devRef .tc main_arg7) = (m ((c.tc : Thread nD τ).loc main_arg7)) := by
  dsimp only [U4, ops4]
  after_results_simp
  exact U3_arg7 m c
theorem U4_arg8 (c : Dev nD) : U4 m c (Proc.devRef .tc main_arg8) = (m ((c.tc : Thread nD τ).loc main_arg8)) := by
  dsimp only [U4, ops4]
  after_results_simp
  exact U3_arg8 m c
theorem U4_arg9 (c : Dev nD) : U4 m c (Proc.devRef .tc main_arg9) = (m ((c.tc : Thread nD τ).loc main_arg9)) := by
  dsimp only [U4, ops4]
  after_results_simp
  exact U3_arg9 m c
theorem U4_arg10 (c : Dev nD) : U4 m c (Proc.devRef .tc main_arg10) = (m ((c.tc : Thread nD τ).loc main_arg10)) := by
  dsimp only [U4, ops4]
  after_results_simp
  exact U3_arg10 m c
theorem U4_arg11 (c : Dev nD) : U4 m c (Proc.devRef .tc main_arg11) = (m ((c.tc : Thread nD τ).loc main_arg11)) := by
  dsimp only [U4, ops4]
  after_results_simp
  exact U3_arg11 m c
theorem U4_arg12 (c : Dev nD) : U4 m c (Proc.devRef .tc main_arg12) = (m ((c.tc : Thread nD τ).loc main_arg12)) := by
  dsimp only [U4, ops4]
  after_results_simp
  exact U3_arg12 m c
theorem U4_v1 (c : Dev nD) : U4 m c (Proc.devRef .tc main_v1) = (srcOf (m ((c.tc : Thread nD τ).loc main_arg1))) := by
  dsimp only [U4, ops4]
  after_results_simp
  exact U3_v1 m c
theorem U4_v3 (c : Dev nD) : U4 m c (Proc.devRef .tc main_v3) = (dstOf (m ((c.tc : Thread nD τ).loc main_arg1))) := by
  dsimp only [U4, ops4]
  after_results_simp
  exact U3_v3 m c
theorem U4_v11 (c : Dev nD) : U4 m c (Proc.devRef .tc main_v11) = (dinvOf (dstOf (m ((c.tc : Thread nD τ).loc main_arg1)))) := by
  dsimp only [U4, ops4]
  after_results_simp
  exact U3_v11 m c
theorem U4_v51 (c : Dev nD) : U4 m c (Proc.devRef .tc main_v51) = (sageLayer true (sageLayer true (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) := by
  refine (relu_second (U3 m c)).trans ?_
  rw [U3_v50 m c]
  exact hostRelu_eq _ _ _ _ _

/-! ## Stage 5: the embedding -/

theorem U5_arg0 (c : Dev nD) : U5 m c (Proc.devRef .tc main_arg0) = (m ((c.tc : Thread nD τ).loc main_arg0)) := by
  dsimp only [U5, ops5]
  after_results_simp
  exact U4_arg0 m c
theorem U5_arg1 (c : Dev nD) : U5 m c (Proc.devRef .tc main_arg1) = (m ((c.tc : Thread nD τ).loc main_arg1)) := by
  dsimp only [U5, ops5]
  after_results_simp
  exact U4_arg1 m c
theorem U5_arg2 (c : Dev nD) : U5 m c (Proc.devRef .tc main_arg2) = (m ((c.tc : Thread nD τ).loc main_arg2)) := by
  dsimp only [U5, ops5]
  after_results_simp
  exact U4_arg2 m c
theorem U5_arg3 (c : Dev nD) : U5 m c (Proc.devRef .tc main_arg3) = (m ((c.tc : Thread nD τ).loc main_arg3)) := by
  dsimp only [U5, ops5]
  after_results_simp
  exact U4_arg3 m c
theorem U5_arg4 (c : Dev nD) : U5 m c (Proc.devRef .tc main_arg4) = (m ((c.tc : Thread nD τ).loc main_arg4)) := by
  dsimp only [U5, ops5]
  after_results_simp
  exact U4_arg4 m c
theorem U5_arg5 (c : Dev nD) : U5 m c (Proc.devRef .tc main_arg5) = (m ((c.tc : Thread nD τ).loc main_arg5)) := by
  dsimp only [U5, ops5]
  after_results_simp
  exact U4_arg5 m c
theorem U5_arg6 (c : Dev nD) : U5 m c (Proc.devRef .tc main_arg6) = (m ((c.tc : Thread nD τ).loc main_arg6)) := by
  dsimp only [U5, ops5]
  after_results_simp
  exact U4_arg6 m c
theorem U5_arg7 (c : Dev nD) : U5 m c (Proc.devRef .tc main_arg7) = (m ((c.tc : Thread nD τ).loc main_arg7)) := by
  dsimp only [U5, ops5]
  after_results_simp
  exact U4_arg7 m c
theorem U5_arg8 (c : Dev nD) : U5 m c (Proc.devRef .tc main_arg8) = (m ((c.tc : Thread nD τ).loc main_arg8)) := by
  dsimp only [U5, ops5]
  after_results_simp
  exact U4_arg8 m c
theorem U5_arg9 (c : Dev nD) : U5 m c (Proc.devRef .tc main_arg9) = (m ((c.tc : Thread nD τ).loc main_arg9)) := by
  dsimp only [U5, ops5]
  after_results_simp
  exact U4_arg9 m c
theorem U5_arg10 (c : Dev nD) : U5 m c (Proc.devRef .tc main_arg10) = (m ((c.tc : Thread nD τ).loc main_arg10)) := by
  dsimp only [U5, ops5]
  after_results_simp
  exact U4_arg10 m c
theorem U5_arg11 (c : Dev nD) : U5 m c (Proc.devRef .tc main_arg11) = (m ((c.tc : Thread nD τ).loc main_arg11)) := by
  dsimp only [U5, ops5]
  after_results_simp
  exact U4_arg11 m c
theorem U5_arg12 (c : Dev nD) : U5 m c (Proc.devRef .tc main_arg12) = (m ((c.tc : Thread nD τ).loc main_arg12)) := by
  dsimp only [U5, ops5]
  after_results_simp
  exact U4_arg12 m c
theorem U5_v70 (c : Dev nD) : U5 m c (Proc.devRef .tc main_v70) = (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show _ = (sageLayer false (sageLayer true (sageLayer true (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg1)) (m ((c.tc : Thread nD τ).loc main_arg8)) (m ((c.tc : Thread nD τ).loc main_arg9)) (m ((c.tc : Thread nD τ).loc main_arg10)))
  dsimp only [U5, ops5]
  after_results_simp
  rw [U4_v3 m c, U4_v51 m c, U4_v1 m c, U4_v11 m c, U4_arg8 m c, U4_arg9 m c, U4_arg10 m c]
  exact (show _ = hostLin (meanOf (sageLayer true (sageLayer true (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) (srcOf (m ((c.tc : Thread nD τ).loc main_arg1))) (dstOf (m ((c.tc : Thread nD τ).loc main_arg1))) (dinvOf (dstOf (m ((c.tc : Thread nD τ).loc main_arg1))))) (sageLayer true (sageLayer true (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) from rfl).trans
    (hostLin_eq _ _ _ _ _)

/-! ## Stage 6: the logits -/

theorem U6_arg0 (c : Dev nD) : U6 m c (Proc.devRef .tc main_arg0) = (m ((c.tc : Thread nD τ).loc main_arg0)) := by
  dsimp only [U6, ops6]
  after_results_simp
  exact U5_arg0 m c
theorem U6_arg1 (c : Dev nD) : U6 m c (Proc.devRef .tc main_arg1) = (m ((c.tc : Thread nD τ).loc main_arg1)) := by
  dsimp only [U6, ops6]
  after_results_simp
  exact U5_arg1 m c
theorem U6_arg2 (c : Dev nD) : U6 m c (Proc.devRef .tc main_arg2) = (m ((c.tc : Thread nD τ).loc main_arg2)) := by
  dsimp only [U6, ops6]
  after_results_simp
  exact U5_arg2 m c
theorem U6_arg3 (c : Dev nD) : U6 m c (Proc.devRef .tc main_arg3) = (m ((c.tc : Thread nD τ).loc main_arg3)) := by
  dsimp only [U6, ops6]
  after_results_simp
  exact U5_arg3 m c
theorem U6_arg4 (c : Dev nD) : U6 m c (Proc.devRef .tc main_arg4) = (m ((c.tc : Thread nD τ).loc main_arg4)) := by
  dsimp only [U6, ops6]
  after_results_simp
  exact U5_arg4 m c
theorem U6_arg5 (c : Dev nD) : U6 m c (Proc.devRef .tc main_arg5) = (m ((c.tc : Thread nD τ).loc main_arg5)) := by
  dsimp only [U6, ops6]
  after_results_simp
  exact U5_arg5 m c
theorem U6_arg6 (c : Dev nD) : U6 m c (Proc.devRef .tc main_arg6) = (m ((c.tc : Thread nD τ).loc main_arg6)) := by
  dsimp only [U6, ops6]
  after_results_simp
  exact U5_arg6 m c
theorem U6_arg7 (c : Dev nD) : U6 m c (Proc.devRef .tc main_arg7) = (m ((c.tc : Thread nD τ).loc main_arg7)) := by
  dsimp only [U6, ops6]
  after_results_simp
  exact U5_arg7 m c
theorem U6_arg8 (c : Dev nD) : U6 m c (Proc.devRef .tc main_arg8) = (m ((c.tc : Thread nD τ).loc main_arg8)) := by
  dsimp only [U6, ops6]
  after_results_simp
  exact U5_arg8 m c
theorem U6_arg9 (c : Dev nD) : U6 m c (Proc.devRef .tc main_arg9) = (m ((c.tc : Thread nD τ).loc main_arg9)) := by
  dsimp only [U6, ops6]
  after_results_simp
  exact U5_arg9 m c
theorem U6_arg10 (c : Dev nD) : U6 m c (Proc.devRef .tc main_arg10) = (m ((c.tc : Thread nD τ).loc main_arg10)) := by
  dsimp only [U6, ops6]
  after_results_simp
  exact U5_arg10 m c
theorem U6_arg11 (c : Dev nD) : U6 m c (Proc.devRef .tc main_arg11) = (m ((c.tc : Thread nD τ).loc main_arg11)) := by
  dsimp only [U6, ops6]
  after_results_simp
  exact U5_arg11 m c
theorem U6_arg12 (c : Dev nD) : U6 m c (Proc.devRef .tc main_arg12) = (m ((c.tc : Thread nD τ).loc main_arg12)) := by
  dsimp only [U6, ops6]
  after_results_simp
  exact U5_arg12 m c
theorem U6_v70 (c : Dev nD) : U6 m c (Proc.devRef .tc main_v70) = (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  dsimp only [U6, ops6]
  after_results_simp
  exact U5_v70 m c
theorem U6_v74 (c : Dev nD) : U6 m c (Proc.devRef .tc main_v74) = hostLogits (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) := by
  dsimp only [U6, ops6]
  after_results_simp
  rw [U5_v70 m c, U5_arg11 m c, U5_arg12 m c]
  rfl

/-! ## Stage 7: the class scores -/

theorem U7_arg0 (c : Dev nD) : U7 m c (Proc.devRef .tc main_arg0) = (m ((c.tc : Thread nD τ).loc main_arg0)) := by
  dsimp only [U7, ops7]
  after_results_simp
  exact U6_arg0 m c
theorem U7_arg1 (c : Dev nD) : U7 m c (Proc.devRef .tc main_arg1) = (m ((c.tc : Thread nD τ).loc main_arg1)) := by
  dsimp only [U7, ops7]
  after_results_simp
  exact U6_arg1 m c
theorem U7_arg2 (c : Dev nD) : U7 m c (Proc.devRef .tc main_arg2) = (m ((c.tc : Thread nD τ).loc main_arg2)) := by
  dsimp only [U7, ops7]
  after_results_simp
  exact U6_arg2 m c
theorem U7_arg3 (c : Dev nD) : U7 m c (Proc.devRef .tc main_arg3) = (m ((c.tc : Thread nD τ).loc main_arg3)) := by
  dsimp only [U7, ops7]
  after_results_simp
  exact U6_arg3 m c
theorem U7_arg4 (c : Dev nD) : U7 m c (Proc.devRef .tc main_arg4) = (m ((c.tc : Thread nD τ).loc main_arg4)) := by
  dsimp only [U7, ops7]
  after_results_simp
  exact U6_arg4 m c
theorem U7_arg5 (c : Dev nD) : U7 m c (Proc.devRef .tc main_arg5) = (m ((c.tc : Thread nD τ).loc main_arg5)) := by
  dsimp only [U7, ops7]
  after_results_simp
  exact U6_arg5 m c
theorem U7_arg6 (c : Dev nD) : U7 m c (Proc.devRef .tc main_arg6) = (m ((c.tc : Thread nD τ).loc main_arg6)) := by
  dsimp only [U7, ops7]
  after_results_simp
  exact U6_arg6 m c
theorem U7_arg7 (c : Dev nD) : U7 m c (Proc.devRef .tc main_arg7) = (m ((c.tc : Thread nD τ).loc main_arg7)) := by
  dsimp only [U7, ops7]
  after_results_simp
  exact U6_arg7 m c
theorem U7_arg8 (c : Dev nD) : U7 m c (Proc.devRef .tc main_arg8) = (m ((c.tc : Thread nD τ).loc main_arg8)) := by
  dsimp only [U7, ops7]
  after_results_simp
  exact U6_arg8 m c
theorem U7_arg9 (c : Dev nD) : U7 m c (Proc.devRef .tc main_arg9) = (m ((c.tc : Thread nD τ).loc main_arg9)) := by
  dsimp only [U7, ops7]
  after_results_simp
  exact U6_arg9 m c
theorem U7_arg10 (c : Dev nD) : U7 m c (Proc.devRef .tc main_arg10) = (m ((c.tc : Thread nD τ).loc main_arg10)) := by
  dsimp only [U7, ops7]
  after_results_simp
  exact U6_arg10 m c
theorem U7_arg11 (c : Dev nD) : U7 m c (Proc.devRef .tc main_arg11) = (m ((c.tc : Thread nD τ).loc main_arg11)) := by
  dsimp only [U7, ops7]
  after_results_simp
  exact U6_arg11 m c
theorem U7_arg12 (c : Dev nD) : U7 m c (Proc.devRef .tc main_arg12) = (m ((c.tc : Thread nD τ).loc main_arg12)) := by
  dsimp only [U7, ops7]
  after_results_simp
  exact U6_arg12 m c
theorem U7_v70 (c : Dev nD) : U7 m c (Proc.devRef .tc main_v70) = (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  dsimp only [U7, ops7]
  after_results_simp
  exact U6_v70 m c
theorem U7_v75 (c : Dev nD) : U7 m c (Proc.devRef .tc main_v75) = scores (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) := by
  refine (lsm_last (U6 m c)).trans ?_
  rw [U6_v74 m c]
  exact hostClassify_eq _ _ _

/-! ## The run -/

/-- Every weakly fair execution of the reference's @main terminates with the two results at the network's embedding
    and class scores of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v70) = (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v75) = scores (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v70).trans ((congrFun (after_ops m c) _).trans (U7_v70 m c)),
     (h c main_v75).trans ((congrFun (after_ops m c) _).trans (U7_v75 m c)),
     (h c main_arg0).trans ((congrFun (after_ops m c) _).trans (U7_arg0 m c)),
     (h c main_arg1).trans ((congrFun (after_ops m c) _).trans (U7_arg1 m c)),
     (h c main_arg2).trans ((congrFun (after_ops m c) _).trans (U7_arg2 m c)),
     (h c main_arg3).trans ((congrFun (after_ops m c) _).trans (U7_arg3 m c)),
     (h c main_arg4).trans ((congrFun (after_ops m c) _).trans (U7_arg4 m c)),
     (h c main_arg5).trans ((congrFun (after_ops m c) _).trans (U7_arg5 m c)),
     (h c main_arg6).trans ((congrFun (after_ops m c) _).trans (U7_arg6 m c)),
     (h c main_arg7).trans ((congrFun (after_ops m c) _).trans (U7_arg7 m c)),
     (h c main_arg8).trans ((congrFun (after_ops m c) _).trans (U7_arg8 m c)),
     (h c main_arg9).trans ((congrFun (after_ops m c) _).trans (U7_arg9 m c)),
     (h c main_arg10).trans ((congrFun (after_ops m c) _).trans (U7_arg10 m c)),
     (h c main_arg11).trans ((congrFun (after_ops m c) _).trans (U7_arg11 m c)),
     (h c main_arg12).trans ((congrFun (after_ops m c) _).trans (U7_arg12 m c))⟩)
    (run_seq scopedRefs_eq scopedSems_eq defs main (fun _ => ops) main_eq (fun _ => ops_sub) m ρ)

end Cert.ReferenceIdeal.Walk

end
-- ==== Proof.lean ====
/-
  A three-layer graph network with a linear classifier and a log-softmax, in two spellings.

  Both programs count the edges ending at each node, and for each layer gather the feature rows of the edges' sources,
  add them into the rows of the edges' destinations and scale by the inverse degrees — the same host operations in the
  same order.  They differ in how a layer's dense part `(mean · Wn + h · Ws) + b` (cut at zero in the first two layers)
  and the final `log_softmax (emb · W + b)` are computed: the kernel's program launches a region per layer that works
  on blocks of 2000 node rows, the reference applies whole-array operations.  A row of either result depends on the
  same row of the operands only, a change of float format is the identity on the extended reals, and a product into a
  zero accumulator, a lane sum and a lane maximum are the host's contraction, sum and maximum; so every block a region
  writes is that block of the whole-array function, and the two programs end with the same embedding and the same class
  scores, entry by entry.  No algebraic law beyond `0 + x = x` and `max (-∞) x = x` (for a maximum already taken from
  `-∞`) is used, so the finiteness of the inputs is never opened.

  The frames: the two kernel programs' are their generated frame certificates; the reference's is its run with the
  results dropped.  The idealization rewrote no operation, so `preserves` asks nothing.
-/
import proofs.«113549_j29454885716510_1_alg».proof.Defs
import proofs.«113549_j29454885716510_1_alg».proof.Proof.Gen.Kernel
import proofs.«113549_j29454885716510_1_alg».proof.Proof.Gen.Kernel.Skeleton
import proofs.«113549_j29454885716510_1_alg».proof.Proof.Gen.Kernel.Launch
import proofs.«113549_j29454885716510_1_alg».proof.Proof.Gen.Kernel.Points
import proofs.«113549_j29454885716510_1_alg».proof.Proof.Gen.Kernel.Frame
import proofs.«113549_j29454885716510_1_alg».proof.Proof.Gen.KernelIdeal
import proofs.«113549_j29454885716510_1_alg».proof.Proof.Gen.KernelIdeal.Skeleton
import proofs.«113549_j29454885716510_1_alg».proof.Proof.Gen.KernelIdeal.Launch
import proofs.«113549_j29454885716510_1_alg».proof.Proof.Gen.KernelIdeal.Points
import proofs.«113549_j29454885716510_1_alg».proof.Proof.Gen.KernelIdeal.Frame
import proofs.«113549_j29454885716510_1_alg».proof.Proof.Gen.ReferenceIdeal
import proofs.«113549_j29454885716510_1_alg».proof.Proof.Gen.Pre_finite_inputs
import proofs.«113549_j29454885716510_1_alg».proof.Proof.KRun
import proofs.«113549_j29454885716510_1_alg».proof.Proof.KHostB
import proofs.«113549_j29454885716510_1_alg».proof.Proof.RefWalk
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Walk.run m ρ)

/-- The idealized program is the printed program's own text read over the extended reals: nothing to state. -/
theorem preserves : Cert.preserves_Kernel_KernelIdeal := trivial

/-- Both programs, run from memories that agree on the arguments, end with the network's embedding and class scores
    of those arguments. -/
theorem algebraic : Cert.algebraic_KernelIdeal_ReferenceIdeal := by
  intro m ρ m' ρ' _ hagree
  refine ⟨fun c => (Cert.KernelIdeal.Net.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))), fun c => Cert.KernelIdeal.Net.scores (Cert.KernelIdeal.Net.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Walk.result_embedding m ρ c),
        (h c).2.1.trans (Cert.KernelIdeal.Walk.result_scores m ρ c), (h c).2.2⟩)
      (Cert.KernelIdeal.Named.run_named m ρ)
  · refine (θ_run Cert.ReferenceIdeal.defs _ _).mono (fun r h c => ?_) (Cert.ReferenceIdeal.Walk.run m' ρ')
    obtain ⟨a0, a1, a2, a3, a4, a5, a6, a7, a8, a9, a10, a11, a12⟩ := hagree c
    refine ⟨(h c).1.trans ?_, (h c).2.1.trans ?_, (h c).2.2⟩
    · rw [a0, a1, a2, a3, a4, a5, a6, a7, a8, a9, a10]
    · rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
